-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S128x32 : Shape := ⟨2, ![128, 32]⟩
abbrev S32 : Shape := ⟨1, ![32]⟩
abbrev S32x40 : Shape := ⟨2, ![32, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x40 : S_.BroadcastsInDim S32x40 (![] : Fin 0 → Fin S32x40.rank)
  reducesTo_S32x40_S_d0_1 : S32x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S32x40 1) : IVec S_ 1 :=
  let main_c_5 : IVec S_ 1 := constantI S_ 1 1#1
  let main_v17 : IVec S_ 1 := (fun x v => Host.reduce IntOp.andi x v reducesTo_S32x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S3200000 32) (main_arg2 : IVec S3200000 32) (main_arg3 : FVec F S128x32 .f32) (main_arg4 : FVec F S32 .f32) (main_arg5 : FVec F S32x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x40 .f32 := Host.absf main_arg5
  let main_cst_4 : FVec F S_ .f32 := constant S_ .f32 0x7F800000#32
  let main_v15 : FVec F S32x40 .f32 := broadcastInDim S32x40 ![] bcast_S_S32x40 main_cst_4
  let main_v16 : IVec S32x40 1 := cmpf .olt main_v14 main_v15
  fn_part1 (F := F) main_arg6 main_v13 main_v16
-- ==== Kernel.lean ====
abbrev S100000x128 : Shape := ⟨2, ![100000, 128]⟩
abbrev S3200000 : Shape := ⟨1, ![3200000]⟩
abbrev S128x32 : Shape := ⟨2, ![128, 32]⟩
abbrev S32 : Shape := ⟨1, ![32]⟩
abbrev S32x40 : Shape := ⟨2, ![32, 40]⟩
abbrev S40 : Shape := ⟨1, ![40]⟩
abbrev S_ : Shape := ⟨0, ![]⟩
abbrev S100000 : Shape := ⟨1, ![100000]⟩
abbrev S3200000x1 : Shape := ⟨2, ![3200000, 1]⟩
abbrev S50000 : Shape := ⟨1, ![50000]⟩
abbrev S100000x32 : Shape := ⟨2, ![100000, 32]⟩
abbrev S5000x128 : Shape := ⟨2, ![5000, 128]⟩
abbrev S5000x32 : Shape := ⟨2, ![5000, 32]⟩
abbrev S3200000x32 : Shape := ⟨2, ![3200000, 32]⟩
abbrev S50000x32 : Shape := ⟨2, ![50000, 32]⟩
abbrev S1x32 : Shape := ⟨2, ![1, 32]⟩
abbrev S100000x40 : Shape := ⟨2, ![100000, 40]⟩
abbrev S5000x40 : Shape := ⟨2, ![5000, 40]⟩
abbrev S3200000x40 : Shape := ⟨2, ![3200000, 40]⟩
abbrev S50000x40 : Shape := ⟨2, ![50000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 142
  | .vmem => 16
  | .smem => 0
  | _ => 0

abbrev hbmTy0_0 (i : Nat) : BufTy := match i % 128 with
  | 0 => ⟨S100000x128, .f32⟩
  | 1 => ⟨S3200000, .i32⟩
  | 2 => ⟨S3200000, .i32⟩
  | 3 => ⟨S128x32, .f32⟩
  | 4 => ⟨S32, .f32⟩
  | 5 => ⟨S32x40, .f32⟩
  | 6 => ⟨S40, .f32⟩
  | 7 => ⟨S_, .f32⟩
  | 8 => ⟨S3200000, .f32⟩
  | 9 => ⟨S_, .f32⟩
  | 10 => ⟨S100000, .f32⟩
  | 11 => ⟨S3200000x1, .i32⟩
  | 12 => ⟨S100000, .f32⟩
  | 13 => ⟨S_, .f32⟩
  | 14 => ⟨S50000, .f32⟩
  | 15 => ⟨S3200000x1, .i32⟩
  | 16 => ⟨S50000, .f32⟩
  | 17 => ⟨S_, .f32⟩
  | 18 => ⟨S100000, .f32⟩
  | 19 => ⟨S100000, .i1⟩
  | 20 => ⟨S_, .f32⟩
  | 21 => ⟨S100000, .f32⟩
  | 22 => ⟨S100000, .f32⟩
  | 23 => ⟨S_, .f32⟩
  | 24 => ⟨S_, .f32⟩
  | 25 => ⟨S100000, .f32⟩
  | 26 => ⟨S100000, .f32⟩
  | 27 => ⟨S_, .f32⟩
  | 28 => ⟨S50000, .f32⟩
  | 29 => ⟨S50000, .i1⟩
  | 30 => ⟨S_, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S100000x32, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000, .f32⟩
  | 47 => ⟨S3200000x1, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000x32, .f32⟩
  | 57 => ⟨S3200000x32, .f32⟩
  | 58 => ⟨S3200000x32, .f32⟩
  | 59 => ⟨S_, .f32⟩
  | 60 => ⟨S50000x32, .f32⟩
  | 61 => ⟨S3200000x1, .i32⟩
  | 62 => ⟨S50000x32, .f32⟩
  | 63 => ⟨S_, .i32⟩
  | 64 => ⟨S3200000, .i32⟩
  | 65 => ⟨S3200000, .i1⟩
  | 66 => ⟨S_, .i32⟩
  | 67 => ⟨S3200000, .i32⟩
  | 68 => ⟨S3200000, .i32⟩
  | 69 => ⟨S3200000, .i32⟩
  | 70 => ⟨S3200000x1, .i32⟩
  | 71 => ⟨S3200000, .f32⟩
  | 72 => ⟨S3200000x1, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x32, .f32⟩
  | 82 => ⟨S3200000x32, .f32⟩
  | 83 => ⟨S3200000x32, .f32⟩
  | 84 => ⟨S_, .f32⟩
  | 85 => ⟨S100000x32, .f32⟩
  | 86 => ⟨S3200000x1, .i32⟩
  | 87 => ⟨S100000x32, .f32⟩
  | 88 => ⟨S1x32, .f32⟩
  | 89 => ⟨S100000x40, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000, .f32⟩
  | 99 => ⟨S3200000x1, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000x40, .f32⟩
  | 109 => ⟨S3200000x40, .f32⟩
  | 110 => ⟨S3200000x40, .f32⟩
  | 111 => ⟨S_, .f32⟩
  | 112 => ⟨S50000x40, .f32⟩
  | 113 => ⟨S3200000x1, .i32⟩
  | 114 => ⟨S50000x40, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000, .f32⟩
  | 124 => ⟨S3200000x1, .f32⟩
  | 125 => ⟨S_, .i32⟩
  | 126 => ⟨S3200000, .i32⟩
  | 127 => ⟨S3200000, .i1⟩
  | _ => ⟨S100000x128, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000x40, .f32⟩
  | 6 => ⟨S3200000x40, .f32⟩
  | 7 => ⟨S3200000x40, .f32⟩
  | 8 => ⟨S_, .f32⟩
  | 9 => ⟨S100000x40, .f32⟩
  | 10 => ⟨S3200000x1, .i32⟩
  | 11 => ⟨S100000x40, .f32⟩
  | 12 => ⟨S1x40, .f32⟩
  | 13 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S32x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_8 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_9 : Ref sig .tc := ⟨.hbm, 48, rfl⟩
abbrev main_v26 : Ref sig .tc := ⟨.hbm, 49, rfl⟩
abbrev main_v27 : Ref sig .tc := ⟨.hbm, 50, rfl⟩
abbrev main_c_10 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_12 : Ref sig .tc := ⟨.hbm, 63, rfl⟩
abbrev main_v38 : Ref sig .tc := ⟨.hbm, 64, rfl⟩
abbrev main_v39 : Ref sig .tc := ⟨.hbm, 65, rfl⟩
abbrev main_c_13 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_14 : Ref sig .tc := ⟨.hbm, 73, rfl⟩
abbrev main_v46 : Ref sig .tc := ⟨.hbm, 74, rfl⟩
abbrev main_v47 : Ref sig .tc := ⟨.hbm, 75, rfl⟩
abbrev main_c_15 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_16 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_17 : Ref sig .tc := ⟨.hbm, 90, rfl⟩
abbrev main_v60 : Ref sig .tc := ⟨.hbm, 91, rfl⟩
abbrev main_v61 : Ref sig .tc := ⟨.hbm, 92, rfl⟩
abbrev main_c_18 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_19 : Ref sig .tc := ⟨.hbm, 100, rfl⟩
abbrev main_v68 : Ref sig .tc := ⟨.hbm, 101, rfl⟩
abbrev main_v69 : Ref sig .tc := ⟨.hbm, 102, rfl⟩
abbrev main_c_20 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_21 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_22 : Ref sig .tc := ⟨.hbm, 115, rfl⟩
abbrev main_v80 : Ref sig .tc := ⟨.hbm, 116, rfl⟩
abbrev main_v81 : Ref sig .tc := ⟨.hbm, 117, rfl⟩
abbrev main_c_23 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_24 : Ref sig .tc := ⟨.hbm, 125, rfl⟩
abbrev main_v88 : Ref sig .tc := ⟨.hbm, 126, rfl⟩
abbrev main_v89 : Ref sig .tc := ⟨.hbm, 127, rfl⟩
abbrev main_c_25 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_26 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S50000 : S_.BroadcastsInDim S50000 (![] : Fin 0 → Fin S50000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S50000x32 : S_.BroadcastsInDim S50000x32 (![] : Fin 0 → Fin S50000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S5000x32_S5000x32 : S5000x32.ShapeCasts S5000x32
  inb_S32x40_S32x40_0_0 : ∀ a, (![0, 0] : Fin 2 → Nat) a + S32x40.size a ≤ S32x40.size a
  h_S32x40 : 0 < S32x40.numel
  inb_S5000x40_S5000x40_0_0 : ∀ a, (![0, 0] : Fin 2 → Nat) a + S5000x40.size a ≤ S5000x40.size a
  h_S5000x40 : 0 < S5000x40.numel
  bcast_S3200000x1_S3200000x40_0_1 : S3200000x1.BroadcastsInDim S3200000x40 (![0, 1] : Fin 2 → Fin S3200000x40.rank)
  bcast_S_S50000x40 : S_.BroadcastsInDim S50000x40 (![] : Fin 0 → Fin S50000x40.rank)
  bcast_S_S100000x40 : S_.BroadcastsInDim S100000x40 (![] : Fin 0 → Fin S100000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3200000x1_S3200000_n_0_0_1_wf : ScatterDims.WF S100000 S3200000x1 S3200000 [] [0] [0] 1
  scatter_S50000_S3200000x1_S3200000_n_0_0_1_wf : ScatterDims.WF S50000 S3200000x1 S3200000 [] [0] [0] 1
  dot_S5000x128_S128x32_S5000x32_1_0_0_1_n_n_wf : DotDims.WF S5000x128 S128x32 S5000x32 [1] [0] [0] [1] [] []
  gather_S50000_S3200000x1_S3200000_n_0_n_n_0_1_1_wf : GatherDims.WF S50000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S50000x32_S3200000x1_S3200000x32_1_0_0_1_wf : ScatterDims.WF S50000x32 S3200000x1 S3200000x32 [1] [0] [0] 1
  gather_S100000_S3200000x1_S3200000_n_0_n_n_0_1_1_wf : GatherDims.WF S100000 S3200000x1 S3200000 [] [0] [] [0] [] 1 ![1]
  gather_S50000x32_S3200000x1_S3200000x32_1_0_n_n_0_1_132_wf : GatherDims.WF S50000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x40_S5000x40_1_0_0_1_n_n_wf : DotDims.WF S5000x32 S32x40 S5000x40 [1] [0] [0] [1] [] []
  gather_S100000x40_S3200000x1_S3200000x40_1_0_n_n_0_1_140_wf : GatherDims.WF S100000x40 S3200000x1 S3200000x40 [1] [0] [] [0] [] 1 ![1, 40]
  scatter_S50000x40_S3200000x1_S3200000x40_1_0_0_1_wf : ScatterDims.WF S50000x40 S3200000x1 S3200000x40 [1] [0] [0] 1
  gather_S50000x40_S3200000x1_S3200000x40_1_0_n_n_0_1_140_wf : GatherDims.WF S50000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x40.size a ≤ S32x40.size a
  hwx1_2 : ∀ i : grid1.Coords, EltTy.bits .f32 = 32 ∨ (Rect.block (s := S32x40) S32x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def scatter_S50000_S3200000x1_S3200000_n_0_0_1 : ScatterDims S50000 S3200000x1 S3200000 where
  updateWindowDims := []
  insertedWindowDims := [0]
  scatterDimsToOperandDims := [0]
  indexVectorDim := 1
  wf := scatter_S50000_S3200000x1_S3200000_n_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000_S3200000x1_S3200000_n_0_n_n_0_1_1 : GatherDims S50000 S3200000x1 S3200000 where
  offsetDims := []
  collapsedSliceDims := [0]
  operandBatchingDims := []
  startIndicesBatchingDims := []
  startIndexMap := [0]
  indexVectorDim := 1
  sliceSizes := ![1]
  wf := gather_S50000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S50000x32_S3200000x1_S3200000x32_1_0_0_1 : ScatterDims S50000x32 S3200000x1 S3200000x32 where
  updateWindowDims := [1]
  insertedWindowDims := [0]
  scatterDimsToOperandDims := [0]
  indexVectorDim := 1
  wf := scatter_S50000x32_S3200000x1_S3200000x32_1_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S50000x32_S3200000x1_S3200000x32_1_0_n_n_0_1_132 : GatherDims S50000x32 S3200000x1 S3200000x32 where
  offsetDims := [1]
  collapsedSliceDims := [0]
  operandBatchingDims := []
  startIndicesBatchingDims := []
  startIndexMap := [0]
  indexVectorDim := 1
  sliceSizes := ![1, 32]
  wf := gather_S50000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x40_S5000x40_1_0_0_1_n_n : DotDims S5000x32 S32x40 S5000x40 where
  lhsContracting := [1]
  rhsContracting := [0]
  lhsNonContracting := [0]
  rhsNonContracting := [1]
  lhsBatch := []
  rhsBatch := []
  wf := dot_S5000x32_S32x40_S5000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S50000x40_S3200000x1_S3200000x40_1_0_0_1 : ScatterDims S50000x40 S3200000x1 S3200000x40 where
  updateWindowDims := [1]
  insertedWindowDims := [0]
  scatterDimsToOperandDims := [0]
  indexVectorDim := 1
  wf := scatter_S50000x40_S3200000x1_S3200000x40_1_0_0_1_wf
def gather_S50000x40_S3200000x1_S3200000x40_1_0_n_n_0_1_140 : GatherDims S50000x40 S3200000x1 S3200000x40 where
  offsetDims := [1]
  collapsedSliceDims := [0]
  operandBatchingDims := []
  startIndicesBatchingDims := []
  startIndexMap := [0]
  indexVectorDim := 1
  sliceSizes := ![1, 40]
  wf := gather_S50000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v99) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v100) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v101) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S3200000 : Shape := ⟨1, ![3200000]⟩
abbrev S128x32 : Shape := ⟨2, ![128, 32]⟩
abbrev S32 : Shape := ⟨1, ![32]⟩
abbrev S32x40 : Shape := ⟨2, ![32, 40]⟩
abbrev S40 : Shape := ⟨1, ![40]⟩
abbrev S100000x32 : Shape := ⟨2, ![100000, 32]⟩
abbrev S_ : Shape := ⟨0, ![]⟩
abbrev S100000 : Shape := ⟨1, ![100000]⟩
abbrev S3200000x1 : Shape := ⟨2, ![3200000, 1]⟩
abbrev S50000 : Shape := ⟨1, ![50000]⟩
abbrev S3200000x32 : Shape := ⟨2, ![3200000, 32]⟩
abbrev S50000x32 : Shape := ⟨2, ![50000, 32]⟩
abbrev S1x32 : Shape := ⟨2, ![1, 32]⟩
abbrev S100000x40 : Shape := ⟨2, ![100000, 40]⟩
abbrev S3200000x40 : Shape := ⟨2, ![3200000, 40]⟩
abbrev S50000x40 : Shape := ⟨2, ![50000, 40]⟩
abbrev S1x40 : Shape := ⟨2, ![1, 40]⟩
abbrev S100000x1 : Shape := ⟨2, ![100000, 1]⟩

abbrev nBuf : Space → Nat
  | .hbm => 193
  | .vmem => 0
  | .smem => 0
  | _ => 0

abbrev hbmTy0_0 (i : Nat) : BufTy := match i % 128 with
  | 0 => ⟨S100000x128, .f32⟩
  | 1 => ⟨S3200000, .i32⟩
  | 2 => ⟨S3200000, .i32⟩
  | 3 => ⟨S128x32, .f32⟩
  | 4 => ⟨S32, .f32⟩
  | 5 => ⟨S32x40, .f32⟩
  | 6 => ⟨S40, .f32⟩
  | 7 => ⟨S100000x32, .f32⟩
  | 8 => ⟨S_, .f32⟩
  | 9 => ⟨S3200000, .f32⟩
  | 10 => ⟨S_, .f32⟩
  | 11 => ⟨S100000, .f32⟩
  | 12 => ⟨S3200000x1, .i32⟩
  | 13 => ⟨S100000, .f32⟩
  | 14 => ⟨S_, .f32⟩
  | 15 => ⟨S100000, .f32⟩
  | 16 => ⟨S100000, .i1⟩
  | 17 => ⟨S_, .f32⟩
  | 18 => ⟨S100000, .f32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S50000, .f32⟩
  | 26 => ⟨S3200000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000, .f32⟩
  | 47 => ⟨S3200000x1, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000x32, .f32⟩
  | 57 => ⟨S3200000x32, .f32⟩
  | 58 => ⟨S3200000x32, .f32⟩
  | 59 => ⟨S_, .f32⟩
  | 60 => ⟨S50000x32, .f32⟩
  | 61 => ⟨S3200000x1, .i32⟩
  | 62 => ⟨S50000x32, .f32⟩
  | 63 => ⟨S_, .i32⟩
  | 64 => ⟨S3200000, .i32⟩
  | 65 => ⟨S3200000, .i1⟩
  | 66 => ⟨S_, .i32⟩
  | 67 => ⟨S3200000, .i32⟩
  | 68 => ⟨S3200000, .i32⟩
  | 69 => ⟨S3200000, .i32⟩
  | 70 => ⟨S3200000x1, .i32⟩
  | 71 => ⟨S3200000, .f32⟩
  | 72 => ⟨S3200000x1, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x32, .f32⟩
  | 82 => ⟨S3200000x32, .f32⟩
  | 83 => ⟨S3200000x32, .f32⟩
  | 84 => ⟨S_, .f32⟩
  | 85 => ⟨S100000x32, .f32⟩
  | 86 => ⟨S3200000x1, .i32⟩
  | 87 => ⟨S100000x32, .f32⟩
  | 88 => ⟨S1x32, .f32⟩
  | 89 => ⟨S100000x32, .f32⟩
  | 90 => ⟨S100000x32, .f32⟩
  | 91 => ⟨S_, .f32⟩
  | 92 => ⟨S100000x32, .f32⟩
  | 93 => ⟨S100000x32, .f32⟩
  | 94 => ⟨S100000x40, .f32⟩
  | 95 => ⟨S_, .f32⟩
  | 96 => ⟨S3200000, .f32⟩
  | 97 => ⟨S_, .f32⟩
  | 98 => ⟨S100000, .f32⟩
  | 99 => ⟨S3200000x1, .i32⟩
  | 100 => ⟨S100000, .f32⟩
  | 101 => ⟨S_, .f32⟩
  | 102 => ⟨S100000, .f32⟩
  | 103 => ⟨S100000, .i1⟩
  | 104 => ⟨S_, .f32⟩
  | 105 => ⟨S100000, .f32⟩
  | 106 => ⟨S100000, .f32⟩
  | 107 => ⟨S_, .f32⟩
  | 108 => ⟨S_, .f32⟩
  | 109 => ⟨S100000, .f32⟩
  | 110 => ⟨S100000, .f32⟩
  | 111 => ⟨S_, .f32⟩
  | 112 => ⟨S50000, .f32⟩
  | 113 => ⟨S3200000x1, .i32⟩
  | 114 => ⟨S50000, .f32⟩
  | 115 => ⟨S_, .f32⟩
  | 116 => ⟨S50000, .f32⟩
  | 117 => ⟨S50000, .i1⟩
  | 118 => ⟨S_, .f32⟩
  | 119 => ⟨S50000, .f32⟩
  | 120 => ⟨S50000, .f32⟩
  | 121 => ⟨S_, .f32⟩
  | 122 => ⟨S_, .f32⟩
  | 123 => ⟨S50000, .f32⟩
  | 124 => ⟨S50000, .f32⟩
  | 125 => ⟨S_, .i32⟩
  | 126 => ⟨S3200000, .i32⟩
  | 127 => ⟨S3200000, .i1⟩
  | _ => ⟨S100000x128, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000, .f32⟩
  | 6 => ⟨S3200000x1, .f32⟩
  | 7 => ⟨S_, .i32⟩
  | 8 => ⟨S3200000, .i32⟩
  | 9 => ⟨S3200000, .i1⟩
  | 10 => ⟨S_, .i32⟩
  | 11 => ⟨S3200000, .i32⟩
  | 12 => ⟨S3200000, .i32⟩
  | 13 => ⟨S3200000, .i32⟩
  | 14 => ⟨S3200000x1, .i32⟩
  | 15 => ⟨S3200000x40, .f32⟩
  | 16 => ⟨S3200000x40, .f32⟩
  | 17 => ⟨S3200000x40, .f32⟩
  | 18 => ⟨S_, .f32⟩
  | 19 => ⟨S50000x40, .f32⟩
  | 20 => ⟨S3200000x1, .i32⟩
  | 21 => ⟨S50000x40, .f32⟩
  | 22 => ⟨S_, .i32⟩
  | 23 => ⟨S3200000, .i32⟩
  | 24 => ⟨S3200000, .i1⟩
  | 25 => ⟨S_, .i32⟩
  | 26 => ⟨S3200000, .i32⟩
  | 27 => ⟨S3200000, .i32⟩
  | 28 => ⟨S3200000, .i32⟩
  | 29 => ⟨S3200000x1, .i32⟩
  | 30 => ⟨S3200000, .f32⟩
  | 31 => ⟨S3200000x1, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x40, .f32⟩
  | 41 => ⟨S3200000x40, .f32⟩
  | 42 => ⟨S3200000x40, .f32⟩
  | 43 => ⟨S_, .f32⟩
  | 44 => ⟨S100000x40, .f32⟩
  | 45 => ⟨S3200000x1, .i32⟩
  | 46 => ⟨S100000x40, .f32⟩
  | 47 => ⟨S1x40, .f32⟩
  | 48 => ⟨S100000x40, .f32⟩
  | 49 => ⟨S100000x40, .f32⟩
  | 50 => ⟨S_, .f32⟩
  | 51 => ⟨S100000, .f32⟩
  | 52 => ⟨S_, .f32⟩
  | 53 => ⟨S100000, .f32⟩
  | 54 => ⟨S100000, .f32⟩
  | 55 => ⟨S100000x1, .f32⟩
  | 56 => ⟨S100000x40, .f32⟩
  | 57 => ⟨S100000x40, .f32⟩
  | 58 => ⟨S100000x40, .f32⟩
  | 59 => ⟨S_, .f32⟩
  | 60 => ⟨S100000, .f32⟩
  | 61 => ⟨S100000x1, .f32⟩
  | 62 => ⟨S100000x1, .f32⟩
  | 63 => ⟨S100000x40, .f32⟩
  | 64 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_8 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_9 : Ref sig .tc := ⟨.hbm, 48, rfl⟩
abbrev main_v26 : Ref sig .tc := ⟨.hbm, 49, rfl⟩
abbrev main_v27 : Ref sig .tc := ⟨.hbm, 50, rfl⟩
abbrev main_c_10 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_12 : Ref sig .tc := ⟨.hbm, 63, rfl⟩
abbrev main_v38 : Ref sig .tc := ⟨.hbm, 64, rfl⟩
abbrev main_v39 : Ref sig .tc := ⟨.hbm, 65, rfl⟩
abbrev main_c_13 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_14 : Ref sig .tc := ⟨.hbm, 73, rfl⟩
abbrev main_v46 : Ref sig .tc := ⟨.hbm, 74, rfl⟩
abbrev main_v47 : Ref sig .tc := ⟨.hbm, 75, rfl⟩
abbrev main_c_15 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_16 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call2_cst : Ref sig .tc := ⟨.hbm, 91, rfl⟩
abbrev main_call2_v0 : Ref sig .tc := ⟨.hbm, 92, rfl⟩
abbrev main_v61 : Ref sig .tc := ⟨.hbm, 93, rfl⟩
abbrev main_v62 : Ref sig .tc := ⟨.hbm, 94, rfl⟩
abbrev main_cst_17 : Ref sig .tc := ⟨.hbm, 95, rfl⟩
abbrev main_v63 : Ref sig .tc := ⟨.hbm, 96, rfl⟩
abbrev main_cst_18 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68 : Ref sig .tc := ⟨.hbm, 103, rfl⟩
abbrev main_cst_20 : Ref sig .tc := ⟨.hbm, 104, rfl⟩
abbrev main_v69 : Ref sig .tc := ⟨.hbm, 105, rfl⟩
abbrev main_v70 : Ref sig .tc := ⟨.hbm, 106, rfl⟩
abbrev main_cst_21 : Ref sig .tc := ⟨.hbm, 107, rfl⟩
abbrev main_call3_v0 : Ref sig .tc := ⟨.hbm, 108, rfl⟩
abbrev main_call3_v1 : Ref sig .tc := ⟨.hbm, 109, rfl⟩
abbrev main_v71 : Ref sig .tc := ⟨.hbm, 110, rfl⟩
abbrev main_cst_22 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_23 : Ref sig .tc := ⟨.hbm, 115, rfl⟩
abbrev main_v75 : Ref sig .tc := ⟨.hbm, 116, rfl⟩
abbrev main_v76 : Ref sig .tc := ⟨.hbm, 117, rfl⟩
abbrev main_cst_24 : Ref sig .tc := ⟨.hbm, 118, rfl⟩
abbrev main_v77 : Ref sig .tc := ⟨.hbm, 119, rfl⟩
abbrev main_v78 : Ref sig .tc := ⟨.hbm, 120, rfl⟩
abbrev main_cst_25 : Ref sig .tc := ⟨.hbm, 121, rfl⟩
abbrev main_call4_v0 : Ref sig .tc := ⟨.hbm, 122, rfl⟩
abbrev main_call4_v1 : Ref sig .tc := ⟨.hbm, 123, rfl⟩
abbrev main_v79 : Ref sig .tc := ⟨.hbm, 124, rfl⟩
abbrev main_c_26 : Ref sig .tc := ⟨.hbm, 125, rfl⟩
abbrev main_v80 : Ref sig .tc := ⟨.hbm, 126, rfl⟩
abbrev main_v81 : Ref sig .tc := ⟨.hbm, 127, rfl⟩
abbrev main_c_27 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_c_28 : Ref sig .tc := ⟨.hbm, 135, rfl⟩
abbrev main_v88 : Ref sig .tc := ⟨.hbm, 136, rfl⟩
abbrev main_v89 : Ref sig .tc := ⟨.hbm, 137, rfl⟩
abbrev main_c_29 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_cst_30 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_c_31 : Ref sig .tc := ⟨.hbm, 150, rfl⟩
abbrev main_v100 : Ref sig .tc := ⟨.hbm, 151, rfl⟩
abbrev main_v101 : Ref sig .tc := ⟨.hbm, 152, rfl⟩
abbrev main_c_32 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_c_33 : Ref sig .tc := ⟨.hbm, 160, rfl⟩
abbrev main_v108 : Ref sig .tc := ⟨.hbm, 161, rfl⟩
abbrev main_v109 : Ref sig .tc := ⟨.hbm, 162, rfl⟩
abbrev main_c_34 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_cst_35 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_call5_cst : Ref sig .tc := ⟨.hbm, 178, rfl⟩
abbrev main_call5_v0 : Ref sig .tc := ⟨.hbm, 179, rfl⟩
abbrev main_call5_cst_0 : Ref sig .tc := ⟨.hbm, 180, rfl⟩
abbrev main_call5_v1 : Ref sig .tc := ⟨.hbm, 181, rfl⟩
abbrev main_call5_v2 : Ref sig .tc := ⟨.hbm, 182, rfl⟩
abbrev main_call5_v3 : Ref sig .tc := ⟨.hbm, 183, rfl⟩
abbrev main_call5_v4 : Ref sig .tc := ⟨.hbm, 184, rfl⟩
abbrev main_call5_v5 : Ref sig .tc := ⟨.hbm, 185, rfl⟩
abbrev main_call5_v6 : Ref sig .tc := ⟨.hbm, 186, rfl⟩
abbrev main_call5_cst_1 : Ref sig .tc := ⟨.hbm, 187, rfl⟩
abbrev main_call5_v7 : Ref sig .tc := ⟨.hbm, 188, rfl⟩
abbrev main_call5_v8 : Ref sig .tc := ⟨.hbm, 189, rfl⟩
abbrev main_call5_v9 : Ref sig .tc := ⟨.hbm, 190, rfl⟩
abbrev main_call5_v10 : Ref sig .tc := ⟨.hbm, 191, rfl⟩
abbrev main_v123 : Ref sig .tc := ⟨.hbm, 192, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S50000 : S_.BroadcastsInDim S50000 (![] : Fin 0 → Fin S50000.rank)
  bcast_S3200000x1_S3200000x32_0_1 : S3200000x1.BroadcastsInDim S3200000x32 (![0, 1] : Fin 2 → Fin S3200000x32.rank)
  bcast_S_S50000x32 : S_.BroadcastsInDim S50000x32 (![] : Fin 0 → Fin S50000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x40_0_1 : S3200000x1.BroadcastsInDim S3200000x40 (![0, 1] : Fin 2 → Fin S3200000x40.rank)
  bcast_S_S50000x40 : S_.BroadcastsInDim S50000x40 (![] : Fin 0 → Fin S50000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x32_S100000x32_1_0_0_1_n_n_wf : DotDims.WF S100000x128 S128x32 S100000x32 [1] [0] [0] [1] [] []
  scatter_S100000_S3200000x1_S3200000_n_0_0_1_wf : ScatterDims.WF S100000 S3200000x1 S3200000 [] [0] [0] 1
  scatter_S50000_S3200000x1_S3200000_n_0_0_1_wf : ScatterDims.WF S50000 S3200000x1 S3200000 [] [0] [0] 1
  gather_S50000_S3200000x1_S3200000_n_0_n_n_0_1_1_wf : GatherDims.WF S50000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S50000x32_S3200000x1_S3200000x32_1_0_0_1_wf : ScatterDims.WF S50000x32 S3200000x1 S3200000x32 [1] [0] [0] 1
  gather_S100000_S3200000x1_S3200000_n_0_n_n_0_1_1_wf : GatherDims.WF S100000 S3200000x1 S3200000 [] [0] [] [0] [] 1 ![1]
  gather_S50000x32_S3200000x1_S3200000x32_1_0_n_n_0_1_132_wf : GatherDims.WF S50000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x40_S100000x40_1_0_0_1_n_n_wf : DotDims.WF S100000x32 S32x40 S100000x40 [1] [0] [0] [1] [] []
  gather_S100000x40_S3200000x1_S3200000x40_1_0_n_n_0_1_140_wf : GatherDims.WF S100000x40 S3200000x1 S3200000x40 [1] [0] [] [0] [] 1 ![1, 40]
  scatter_S50000x40_S3200000x1_S3200000x40_1_0_0_1_wf : ScatterDims.WF S50000x40 S3200000x1 S3200000x40 [1] [0] [0] 1
  gather_S50000x40_S3200000x1_S3200000x40_1_0_n_n_0_1_140_wf : GatherDims.WF S50000x40 S3200000x1 S3200000x40 [1] [0] [] [0] [] 1 ![1, 40]
  scatter_S100000x40_S3200000x1_S3200000x40_1_0_0_1_wf : ScatterDims.WF S100000x40 S3200000x1 S3200000x40 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def scatter_S50000_S3200000x1_S3200000_n_0_0_1 : ScatterDims S50000 S3200000x1 S3200000 where
  updateWindowDims := []
  insertedWindowDims := [0]
  scatterDimsToOperandDims := [0]
  indexVectorDim := 1
  wf := scatter_S50000_S3200000x1_S3200000_n_0_0_1_wf
def gather_S50000_S3200000x1_S3200000_n_0_n_n_0_1_1 : GatherDims S50000 S3200000x1 S3200000 where
  offsetDims := []
  collapsedSliceDims := [0]
  operandBatchingDims := []
  startIndicesBatchingDims := []
  startIndexMap := [0]
  indexVectorDim := 1
  sliceSizes := ![1]
  wf := gather_S50000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S50000x32_S3200000x1_S3200000x32_1_0_0_1 : ScatterDims S50000x32 S3200000x1 S3200000x32 where
  updateWindowDims := [1]
  insertedWindowDims := [0]
  scatterDimsToOperandDims := [0]
  indexVectorDim := 1
  wf := scatter_S50000x32_S3200000x1_S3200000x32_1_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S50000x32_S3200000x1_S3200000x32_1_0_n_n_0_1_132 : GatherDims S50000x32 S3200000x1 S3200000x32 where
  offsetDims := [1]
  collapsedSliceDims := [0]
  operandBatchingDims := []
  startIndicesBatchingDims := []
  startIndexMap := [0]
  indexVectorDim := 1
  sliceSizes := ![1, 32]
  wf := gather_S50000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x40_S100000x40_1_0_0_1_n_n : DotDims S100000x32 S32x40 S100000x40 where
  lhsContracting := [1]
  rhsContracting := [0]
  lhsNonContracting := [0]
  rhsNonContracting := [1]
  lhsBatch := []
  rhsBatch := []
  wf := dot_S100000x32_S32x40_S100000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S50000x40_S3200000x1_S3200000x40_1_0_0_1 : ScatterDims S50000x40 S3200000x1 S3200000x40 where
  updateWindowDims := [1]
  insertedWindowDims := [0]
  scatterDimsToOperandDims := [0]
  indexVectorDim := 1
  wf := scatter_S50000x40_S3200000x1_S3200000x40_1_0_0_1_wf
def gather_S50000x40_S3200000x1_S3200000x40_1_0_n_n_0_1_140 : GatherDims S50000x40 S3200000x1 S3200000x40 where
  offsetDims := [1]
  collapsedSliceDims := [0]
  operandBatchingDims := []
  startIndicesBatchingDims := []
  startIndexMap := [0]
  indexVectorDim := 1
  sliceSizes := ![1, 40]
  wf := gather_S50000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

class Facts : Prop extends Facts₀ where

variable [Facts]
-- ==== Proof.KernelRun.lean ====
/-
  The kernel program's run, with its result named.

  @main is four stretches of host operations, the first product, a stretch, the second product, a stretch, the
  log-softmax. Every weakly fair execution terminates, and every unscoped buffer of a core ends at the contents the
  fold through those nine segments leaves: in particular the result buffer, and the seven argument arrays, which no
  segment writes.
-/
import proofs.«116423_j20418274525980_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run read at the result buffer and at the seven arguments. -/
theorem run : θ_run defs (onTc (τ := τ) (main (F := F))) ⟨m, fun _ => 0, ρ⟩ (fun r => ∀ c : Dev nD,
      r.2.mem ((c.tc : Thread nD τ).loc main_v101) = W9 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v101 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)
    (run_all m ρ)

end Cert.KernelIdeal.WholeRun

end
-- ==== Proof.Spec.lean ====
/-
  The function both programs compute, written once over whole arrays.

  A two-layer hypergraph convolution with a row-wise log-softmax on top. With x the node features, n and e the
  node and hyperedge index of each incidence, and W₁, b₁, W₂, b₂ the layers' weights:

    out = logSoftmaxRows (spread (relu (spread (x · W₁) + b₁) · W₂) + b₂)

  where `spread Y` is the normalised incidence operator: every incidence (n k, e k) sends row n k of Y, scaled by the
  inverse size of hyperedge e k, to row e k of a hyperedge table, and then sends row e k of that table, scaled by the
  inverse degree of node n k, back to row n k of the result (inverse of zero read as zero). The index-dependent part
  (the degrees and `spread`) is stated here by the reference's own operations and is never opened: both programs apply
  the same operations to it in the same order. The dense part is stated so that each stage is one named function.
-/
import proofs.«116423_j20418274525980_1_alg».proof.ReferenceIdeal

noncomputable section

namespace Cert.Spec

open Cert.ReferenceIdeal Idealize.ShloMosaic

variable {F : FTy → Type} [FloatOps F] [Facts]

open Facts₀ Facts

/-! ## The index-dependent operations -/

/-- A node index with a negative value counted from the end. -/
def nodeIx (n : (⟨S3200000, .i32⟩ : BufTy).Contents (Elt F)) : (⟨S3200000, .i32⟩ : BufTy).Contents (Elt F) :=
  select (cmpi .slt n (broadcastInDim S3200000 ![] bcast_S_S3200000 (constantI S_ 32 0#32))) (addi n (broadcastInDim S3200000 ![] bcast_S_S3200000 (constantI S_ 32 100000#32))) n

/-- A hyperedge index with a negative value counted from the end. -/
def edgeIx (e : (⟨S3200000, .i32⟩ : BufTy).Contents (Elt F)) : (⟨S3200000, .i32⟩ : BufTy).Contents (Elt F) :=
  select (cmpi .slt e (broadcastInDim S3200000 ![] bcast_S_S3200000 (constantI S_ 32 0#32))) (addi e (broadcastInDim S3200000 ![] bcast_S_S3200000 (constantI S_ 32 50000#32))) e

/-- The inverse degree of every node: one over the number of incidences naming it, zero where there is none. -/
def invNodeDegree (n : (⟨S3200000, .i32⟩ : BufTy).Contents (Elt F)) : (⟨S100000, .f32⟩ : BufTy).Contents (Elt F) :=
  select (cmpf (F := F) .ogt (Host.scatterAdd scatter_S100000_S3200000x1_S3200000_n_0_0_1 (broadcastInDim S100000 ![] bcast_S_S100000 (constant S_ .f32 0x00000000#32)) (broadcastInDim S3200000x1 ![0] bcast_S3200000_S3200000x1_0 n) (broadcastInDim S3200000 ![] bcast_S_S3200000 (constant S_ .f32 0x3F800000#32))) (broadcastInDim S100000 ![] bcast_S_S100000 (constant S_ .f32 0x00000000#32))) (Host.divf (broadcastInDim S100000 ![] bcast_S_S100000 (constant S_ .f32 0x3F800000#32)) (Host.scatterAdd scatter_S100000_S3200000x1_S3200000_n_0_0_1 (broadcastInDim S100000 ![] bcast_S_S100000 (constant S_ .f32 0x00000000#32)) (broadcastInDim S3200000x1 ![0] bcast_S3200000_S3200000x1_0 n) (broadcastInDim S3200000 ![] bcast_S_S3200000 (constant S_ .f32 0x3F800000#32)))) (broadcastInDim S100000 ![] bcast_S_S100000 (id (constant S_ .f32 0x00000000#32)))

/-- The inverse size of every hyperedge. -/
def invEdgeSize (e : (⟨S3200000, .i32⟩ : BufTy).Contents (Elt F)) : (⟨S50000, .f32⟩ : BufTy).Contents (Elt F) :=
  select (cmpf (F := F) .ogt (Host.scatterAdd scatter_S50000_S3200000x1_S3200000_n_0_0_1 (broadcastInDim S50000 ![] bcast_S_S50000 (constant S_ .f32 0x00000000#32)) (broadcastInDim S3200000x1 ![0] bcast_S3200000_S3200000x1_0 e) (broadcastInDim S3200000 ![] bcast_S_S3200000 (constant S_ .f32 0x3F800000#32))) (broadcastInDim S50000 ![] bcast_S_S50000 (constant S_ .f32 0x00000000#32))) (Host.divf (broadcastInDim S50000 ![] bcast_S_S50000 (constant S_ .f32 0x3F800000#32)) (Host.scatterAdd scatter_S50000_S3200000x1_S3200000_n_0_0_1 (broadcastInDim S50000 ![] bcast_S_S50000 (constant S_ .f32 0x00000000#32)) (broadcastInDim S3200000x1 ![0] bcast_S3200000_S3200000x1_0 e) (broadcastInDim S3200000 ![] bcast_S_S3200000 (constant S_ .f32 0x3F800000#32)))) (broadcastInDim S50000 ![] bcast_S_S50000 (id (constant S_ .f32 0x00000000#32)))

/-- The normalised incidence operator on a table of 32 columns, given the inverse degrees `dn` and sizes `be`. -/
def spread32 (Y : (⟨S100000x32, .f32⟩ : BufTy).Contents (Elt F)) (n e : (⟨S3200000, .i32⟩ : BufTy).Contents (Elt F))
    (dn : (⟨S100000, .f32⟩ : BufTy).Contents (Elt F)) (be : (⟨S50000, .f32⟩ : BufTy).Contents (Elt F)) :
    (⟨S100000x32, .f32⟩ : BufTy).Contents (Elt F) :=
  Host.scatterAdd scatter_S100000x32_S3200000x1_S3200000x32_1_0_0_1 (broadcastInDim S100000x32 ![] bcast_S_S100000x32 (constant S_ .f32 0x00000000#32)) (broadcastInDim S3200000x1 ![0] bcast_S3200000_S3200000x1_0 n) (mulf (broadcastInDim S3200000x32 ![0, 1] bcast_S3200000x1_S3200000x32_0_1 (broadcastInDim S3200000x1 ![0] bcast_S3200000_S3200000x1_0 (Host.gather gather_S100000_S3200000x1_S3200000_n_0_n_n_0_1_1 dn (broadcastInDim S3200000x1 ![0] bcast_S3200000_S3200000x1_0 (nodeIx n))))) (Host.gather gather_S50000x32_S3200000x1_S3200000x32_1_0_n_n_0_1_132 (Host.scatterAdd scatter_S50000x32_S3200000x1_S3200000x32_1_0_0_1 (broadcastInDim S50000x32 ![] bcast_S_S50000x32 (constant S_ .f32 0x00000000#32)) (broadcastInDim S3200000x1 ![0] bcast_S3200000_S3200000x1_0 e) (mulf (broadcastInDim S3200000x32 ![0, 1] bcast_S3200000x1_S3200000x32_0_1 (broadcastInDim S3200000x1 ![0] bcast_S3200000_S3200000x1_0 (Host.gather gather_S50000_S3200000x1_S3200000_n_0_n_n_0_1_1 be (broadcastInDim S3200000x1 ![0] bcast_S3200000_S3200000x1_0 (edgeIx e))))) (Host.gather gather_S100000x32_S3200000x1_S3200000x32_1_0_n_n_0_1_132 Y (broadcastInDim S3200000x1 ![0] bcast_S3200000_S3200000x1_0 (nodeIx n))))) (broadcastInDim S3200000x1 ![0] bcast_S3200000_S3200000x1_0 (edgeIx e))))

/-- The same operator on a table of 40 columns. -/
def spread40 (Y : (⟨S100000x40, .f32⟩ : BufTy).Contents (Elt F)) (n e : (⟨S3200000, .i32⟩ : BufTy).Contents (Elt F))
    (dn : (⟨S100000, .f32⟩ : BufTy).Contents (Elt F)) (be : (⟨S50000, .f32⟩ : BufTy).Contents (Elt F)) :
    (⟨S100000x40, .f32⟩ : BufTy).Contents (Elt F) :=
  Host.scatterAdd scatter_S100000x40_S3200000x1_S3200000x40_1_0_0_1 (broadcastInDim S100000x40 ![] bcast_S_S100000x40 (constant S_ .f32 0x00000000#32)) (broadcastInDim S3200000x1 ![0] bcast_S3200000_S3200000x1_0 n) (mulf (broadcastInDim S3200000x40 ![0, 1] bcast_S3200000x1_S3200000x40_0_1 (broadcastInDim S3200000x1 ![0] bcast_S3200000_S3200000x1_0 (Host.gather gather_S100000_S3200000x1_S3200000_n_0_n_n_0_1_1 dn (broadcastInDim S3200000x1 ![0] bcast_S3200000_S3200000x1_0 (nodeIx n))))) (Host.gather gather_S50000x40_S3200000x1_S3200000x40_1_0_n_n_0_1_140 (Host.scatterAdd scatter_S50000x40_S3200000x1_S3200000x40_1_0_0_1 (broadcastInDim S50000x40 ![] bcast_S_S50000x40 (constant S_ .f32 0x00000000#32)) (broadcastInDim S3200000x1 ![0] bcast_S3200000_S3200000x1_0 e) (mulf (broadcastInDim S3200000x40 ![0, 1] bcast_S3200000x1_S3200000x40_0_1 (broadcastInDim S3200000x1 ![0] bcast_S3200000_S3200000x1_0 (Host.gather gather_S50000_S3200000x1_S3200000_n_0_n_n_0_1_1 be (broadcastInDim S3200000x1 ![0] bcast_S3200000_S3200000x1_0 (edgeIx e))))) (Host.gather gather_S100000x40_S3200000x1_S3200000x40_1_0_n_n_0_1_140 Y (broadcastInDim S3200000x1 ![0] bcast_S3200000_S3200000x1_0 (nodeIx n))))) (broadcastInDim S3200000x1 ![0] bcast_S3200000_S3200000x1_0 (edgeIx e))))

/-! ## The dense stages, in the reference's spelling -/

/-- The first product x · W₁. -/
def product1 (x : (⟨S100000x128, .f32⟩ : BufTy).Contents (Elt F)) (W : (⟨S128x32, .f32⟩ : BufTy).Contents (Elt F)) :
    (⟨S100000x32, .f32⟩ : BufTy).Contents (Elt F) :=
  Host.dotGeneral dot_S100000x128_S128x32_S100000x32_1_0_0_1_n_n none x W

/-- max (C + b₁, 0), the bias added to every row. -/
def hidden (C : (⟨S100000x32, .f32⟩ : BufTy).Contents (Elt F)) (b : (⟨S32, .f32⟩ : BufTy).Contents (Elt F)) :
    (⟨S100000x32, .f32⟩ : BufTy).Contents (Elt F) :=
  maximumf (addf C (broadcastInDim S100000x32 ![0, 1] bcast_S1x32_S100000x32_0_1 (broadcastInDim S1x32 ![1] bcast_S32_S1x32_1 b))) (broadcastInDim S100000x32 ![] bcast_S_S100000x32 (constant S_ .f32 0x00000000#32))

/-- The second product H · W₂. -/
def product2 (H : (⟨S100000x32, .f32⟩ : BufTy).Contents (Elt F)) (W : (⟨S32x40, .f32⟩ : BufTy).Contents (Elt F)) :
    (⟨S100000x40, .f32⟩ : BufTy).Contents (Elt F) :=
  Host.dotGeneral dot_S100000x32_S32x40_S100000x40_1_0_0_1_n_n none H W

/-- C + b₂, the bias added to every row. -/
def logits (C : (⟨S100000x40, .f32⟩ : BufTy).Contents (Elt F)) (b : (⟨S40, .f32⟩ : BufTy).Contents (Elt F)) :
    (⟨S100000x40, .f32⟩ : BufTy).Contents (Elt F) :=
  addf C (broadcastInDim S100000x40 ![0, 1] bcast_S1x40_S100000x40_0_1 (broadcastInDim S1x40 ![1] bcast_S40_S1x40_1 b))

/-- The shift of every row by its maximum. -/
def shifted (Z : (⟨S100000x40, .f32⟩ : BufTy).Contents (Elt F)) : (⟨S100000x40, .f32⟩ : BufTy).Contents (Elt F) :=
  subf Z (broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf Z (constant S_ .f32 0xFF800000#32) reducesTo_S100000x40_S100000_d1 h_S_))))

/-- The row-wise log-softmax: the shifted row minus the log of the sum of its exponentials. -/
def logSoftmaxRows (Z : (⟨S100000x40, .f32⟩ : BufTy).Contents (Elt F)) : (⟨S100000x40, .f32⟩ : BufTy).Contents (Elt F) :=
  subf (shifted Z) (broadcastInDim S100000x40 ![0, 1] bcast_S100000x1_S100000x40_0_1 (Host.log (broadcastInDim S100000x1 ![0] bcast_S100000_S100000x1_0 (Host.reduceAdd (Host.exp (shifted Z)) (constant S_ .f32 0x00000000#32) reducesTo_S100000x40_S100000_d1 h_S_))))

/-! ## The whole function -/

/-- The network's output as one function of the seven argument arrays. -/
def out (x : (⟨S100000x128, .f32⟩ : BufTy).Contents (Elt F)) (n e : (⟨S3200000, .i32⟩ : BufTy).Contents (Elt F))
    (W1 : (⟨S128x32, .f32⟩ : BufTy).Contents (Elt F)) (b1 : (⟨S32, .f32⟩ : BufTy).Contents (Elt F))
    (W2 : (⟨S32x40, .f32⟩ : BufTy).Contents (Elt F)) (b2 : (⟨S40, .f32⟩ : BufTy).Contents (Elt F)) :
    (⟨S100000x40, .f32⟩ : BufTy).Contents (Elt F) :=
  logSoftmaxRows (logits (spread40 (product2 (hidden (spread32 (product1 x W1) n e (invNodeDegree n) (invEdgeSize e)) b1) W2) n e (invNodeDegree n) (invEdgeSize e)) b2)

end Cert.Spec

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«116423_j20418274525980_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«116423_j20418274525980_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«116423_j20418274525980_1_alg».proof.Proof.LibBlockReads
import proofs.«116423_j20418274525980_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibLogSoftmaxRows.lean ====
/-
  The row-wise log-softmax on the extended reals, read at an entry.

  For a row z(p, ·) of an a×b array and a starting value w, `top w z p` is the maximum of w and the fold of max from
  w over the row's entries, and `entry w z p q` is (z(p,q) − top) − log Σ_k exp (z(p,k) − top). A kernel body spells
  this with a lane maximum started from the word of w, a further maximum with a splat of that word, the result
  re-shaped to a column and broadcast across the row, subtraction, exp, a lane sum, log of the re-shaped column,
  broadcast, subtraction (`body_apply`); the host spells it with a reduce-max from a scalar constant, a maximum with a
  broadcast of that constant, two broadcasts into the a×b array, subtraction, exp, a reduce-add from the zero word,
  log, broadcast, subtraction (`host_apply`). Both read `entry` at the word FF800000. No finiteness is asked: the
  same extended-real operations are applied in the same order on both sides. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«116423_j20418274525980_1_alg».proof.Proof.LibRowReductions
import proofs.«116423_j20418274525980_1_alg».proof.Proof.LibRowVector

open scoped BigOperators

noncomputable section

namespace Cert.Lib.LogSoftmaxRows

open Idealize.ShloMosaic Idealize.ShloMosaic.ValueIdx Cert.Lib.RowReductions

variable {a b : Nat}

/-- The maximum of w and the row's maximum started from w. -/
def top (w : EReal) (z : (⟨2, ![a, b]⟩ : Shape).Idx → EReal) (p : Fin a) : EReal :=
  max w ((Finset.univ : Finset (Fin b)).fold max w (fun k => z (ix2 p k)))

/-- (z(p,q) − top) − log Σ_k exp (z(p,k) − top). -/
def entry (w : EReal) (z : (⟨2, ![a, b]⟩ : Shape).Idx → EReal) (p : Fin a) (q : Fin b) : EReal :=
  (z (ix2 p q) - top w z p) - Ideal.log (∑ k : Fin b, Ideal.exp (z (ix2 p k) - top w z p))

/-- The kernel body's spelling. -/
theorem body_apply (z : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφm : FKind.Formats .f32) (haccm : (0xFF800000#32 : BitVec 32) = FKind.maximumf.neutral .f32 hφm)
    (hφ0 : FKind.Formats .f32) (hacc0 : (0x00000000#32 : BitVec 32) = FKind.add.neutral .f32 hφ0) (p : Fin a) (q : Fin b) :
    subf
      (subf z (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ z 0xFF800000#32 hr hφm haccm)) hc) hb))
      (broadcastTo ⟨2, ![a, b]⟩ (log (shapeCast ⟨2, ![a, 1]⟩ (multiReduction .add [1] ⟨1, ![a]⟩
        (exp (subf z (broadcastTo ⟨2, ![a, b]⟩ (shapeCast ⟨2, ![a, 1]⟩
          (maximumf (broadcast ⟨1, ![a]⟩ (Scalar.ofBits (F := Ideal) .f32 0xFF800000#32))
            (multiReduction .maximumf [1] ⟨1, ![a]⟩ z 0xFF800000#32 hr hφm haccm)) hc) hb)))
        0x00000000#32 hr hφ0 hacc0) hc)) hb) (ix2 p q)
      = entry (Ideal.ofBits .f32 0xFF800000#32) z p q := by
  have htop : ∀ q' : Fin b, broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ z 0xFF800000#32 hr hφm haccm)) hc) hb (ix2 p q')
      = top (Ideal.ofBits .f32 0xFF800000#32) z p := fun q' =>
    (broadcast_col_apply _ hb p q').trans ((shapeCast_col_apply _ hc p).trans (by
      rw [maximumf_apply, broadcast_apply, rowmax_apply z _ hr hφm haccm p]; rfl))
  have hexp : ∀ q' : Fin b, exp (subf z (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ z 0xFF800000#32 hr hφm haccm)) hc) hb)) (ix2 p q')
      = Ideal.exp (z (ix2 p q') - top (Ideal.ofBits .f32 0xFF800000#32) z p) := fun q' =>
    congrArg (fun t => Ideal.exp (z (ix2 p q') - t)) (htop q')
  rw [subf_apply, subf_apply, htop q]
  refine congrArg (fun t => (z (ix2 p q) - top (Ideal.ofBits .f32 0xFF800000#32) z p) - t) ?_
  refine (broadcast_col_apply _ hb p q).trans ?_
  show Ideal.log (shapeCast ⟨2, ![a, 1]⟩ _ hc (ix2 p 0)) = _
  refine congrArg Ideal.log ((shapeCast_col_apply _ hc p).trans ((rowsum_apply _ _ hr hφ0 hacc0 p).trans ?_))
  exact Finset.sum_congr rfl fun u _ => hexp u

/-- The host's spelling. -/
theorem host_apply (z : FVec Ideal ⟨2, ![a, b]⟩ .f32)
    (hr' : (⟨2, ![a, b]⟩ : Shape).ReducesTo [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    subf
      (subf z (broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf z (constant (F := Ideal) ⟨0, ![]⟩ .f32 0xFF800000#32) hr' hu)))))
      (broadcastInDim ⟨2, ![a, b]⟩ ![0, 1] h2 (Host.log (broadcastInDim ⟨2, ![a, 1]⟩ ![0] h1
        (Host.reduceAdd (Host.exp (subf z (broadcastInDim ⟨2, ![a, b]⟩ ![0, 1] h2 (broadcastInDim ⟨2, ![a, 1]⟩ ![0] h1
          (maximumf (broadcastInDim ⟨1, ![a]⟩ ![] h0 (constant (F := Ideal) ⟨0, ![]⟩ .f32 0xFF800000#32))
            (Host.reduce FloatOps.maximumf z (constant (F := Ideal) ⟨0, ![]⟩ .f32 0xFF800000#32) hr' hu))))))
          (constant (F := Ideal) ⟨0, ![]⟩ .f32 0x00000000#32) hr' hu)))) (ix2 p q)
      = entry (Ideal.ofBits .f32 0xFF800000#32) z p q := by
  have hr : (⟨2, ![a, b]⟩ : Shape).Reduces [1] ⟨1, ![a]⟩ := ⟨hr'.1, Nat.one_pos, hr'.2⟩
  have htop : ∀ q' : Fin b, broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf z (constant (F := Ideal) ⟨0, ![]⟩ .f32 0xFF800000#32) hr' hu))) (ix2 p q')
      = top (Ideal.ofBits .f32 0xFF800000#32) z p := fun q' =>
    (bcastInDim_cols_apply _ h2 p q').trans ((bcastInDim_col_apply _ h1 p).trans (by
      rw [maximumf_apply, Cert.Lib.RowVector.bcastInDim_scalar_apply, constant_apply,
        host_rowmax_apply z _ hr' hu p, constant_apply]; rfl))
  have hexp : ∀ q' : Fin b, Host.exp (subf z (broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf z (constant (F := Ideal) ⟨0, ![]⟩ .f32 0xFF800000#32) hr' hu))))) (ix2 p q')
      = Ideal.exp (z (ix2 p q') - top (Ideal.ofBits .f32 0xFF800000#32) z p) := fun q' =>
    congrArg (fun t => Ideal.exp (z (ix2 p q') - t)) (htop q')
  rw [subf_apply, subf_apply, htop q]
  refine congrArg (fun t => (z (ix2 p q) - top (Ideal.ofBits .f32 0xFF800000#32) z p) - t) ?_
  refine (bcastInDim_cols_apply _ h2 p q).trans ?_
  show Ideal.log _ = Ideal.log _
  refine congrArg Ideal.log ((bcastInDim_col_apply _ h1 p).trans ?_)
  simp only [Host.reduceAdd, Ideal.hostReduceAdd_def]
  rw [Ideal.hostReduceAdd_single hr' hr, constant_apply, Ideal.ofBits_zero_f32, zero_add]
  exact Finset.sum_congr rfl fun k _ => (congrArg _ (lift_row hr p k)).trans (hexp ⟨k.val, k.isLt⟩)

end Cert.Lib.LogSoftmaxRows

end
-- ==== Proof.LibRowsLogSoftmax.lean ====
/-
  The row-wise log-softmax of an n×k array plus a bias row, on the extended reals, as one function of whole arrays.

  `addRow X b` adds a 1×k row to every row of X; `rows Z` is, entry by entry, (z − top) − log Σ exp (z − top) along
  each row with top the row's maximum started from −∞ (the word FF800000) — `LogSoftmaxRows.entry` at that word. An
  entry depends on one row of the array (`entry_rows`), so a block of rows of the result is the result of that block.
  `body_entry` reads a kernel body that uses the lane maximum as it comes (no further maximum with a splat of the
  starting word): a fold of max started from w is at least w, so it is the same entry. No finiteness is asked.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«116423_j20418274525980_1_alg».proof.Proof.LibRowReductions
import proofs.«116423_j20418274525980_1_alg».proof.Proof.LibLogSoftmaxRows

open scoped BigOperators

noncomputable section

open Idealize.ShloMosaic Idealize.ShloMosaic.ValueIdx

namespace Cert.Lib.RowsLogSoftmax

open Cert.Lib.LogSoftmaxRows Cert.Lib.RowReductions

/-! ## The function, free of any program -/

/-- A 1×k row added to every row of an n×k array. -/
def addRow {n k : Nat} (X : (⟨2, ![n, k]⟩ : Shape).Idx → EReal) (b : (⟨2, ![1, k]⟩ : Shape).Idx → EReal) :
    (⟨2, ![n, k]⟩ : Shape).Idx → EReal :=
  fun i => X i + b (ix2 (0 : Fin 1) (i 1))

theorem addRow_apply {n k : Nat} (X : (⟨2, ![n, k]⟩ : Shape).Idx → EReal) (b : (⟨2, ![1, k]⟩ : Shape).Idx → EReal)
    (p : Fin n) (q : Fin k) : addRow X b (ix2 p q) = X (ix2 p q) + b (ix2 0 q) := rfl

/-- The row-wise log-softmax of an n×k array, the maxima started from −∞ (the word FF800000). -/
def rows {n k : Nat} (Z : (⟨2, ![n, k]⟩ : Shape).Idx → EReal) : (⟨2, ![n, k]⟩ : Shape).Idx → EReal :=
  fun i => entry (Ideal.ofBits .f32 0xFF800000#32) Z (i 0) (i 1)

theorem rows_apply {n k : Nat} (Z : (⟨2, ![n, k]⟩ : Shape).Idx → EReal) (p : Fin n) (q : Fin k) :
    rows Z (ix2 p q) = entry (Ideal.ofBits .f32 0xFF800000#32) Z p q := rfl

/-- An entry depends on one row: equal rows give equal entries. -/
theorem entry_rows {n n' k : Nat} (w : EReal) (Z : (⟨2, ![n, k]⟩ : Shape).Idx → EReal) (Z' : (⟨2, ![n', k]⟩ : Shape).Idx → EReal)
    (p' : Fin n') (p : Fin n) (q : Fin k) (h : ∀ u : Fin k, Z' (ix2 p' u) = Z (ix2 p u)) :
    entry w Z' p' q = entry w Z p q := by
  simp only [entry, top, h]

/-- A kernel body's spelling with the lane maximum used as it comes: the fold of max from w is at least w, so the
    further maximum with w that `entry` takes changes nothing. -/
theorem body_entry {a b : Nat} (z : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩)
    (hφm : FKind.Formats .f32) (haccm : (0xFF800000#32 : BitVec 32) = FKind.maximumf.neutral .f32 hφm)
    (hφ0 : FKind.Formats .f32) (hacc0 : (0x00000000#32 : BitVec 32) = FKind.add.neutral .f32 hφ0) (p : Fin a) (q : Fin b) :
    subf
      (subf z (broadcastTo ⟨2, ![a, b]⟩ (shapeCast ⟨2, ![a, 1]⟩
        (multiReduction .maximumf [1] ⟨1, ![a]⟩ z 0xFF800000#32 hr hφm haccm) hc) hb))
      (broadcastTo ⟨2, ![a, b]⟩ (log (shapeCast ⟨2, ![a, 1]⟩ (multiReduction .add [1] ⟨1, ![a]⟩
        (exp (subf z (broadcastTo ⟨2, ![a, b]⟩ (shapeCast ⟨2, ![a, 1]⟩
          (multiReduction .maximumf [1] ⟨1, ![a]⟩ z 0xFF800000#32 hr hφm haccm) hc) hb)))
        0x00000000#32 hr hφ0 hacc0) hc)) hb) (ix2 p q)
      = entry (Ideal.ofBits .f32 0xFF800000#32) z p q := by
  have hfold : (Finset.univ : Finset (Fin b)).fold max (Ideal.ofBits .f32 0xFF800000#32) (fun k => z (ix2 p k))
      = top (Ideal.ofBits .f32 0xFF800000#32) z p :=
    (max_eq_right ((Finset.le_fold_max _).mpr (Or.inl le_rfl))).symm
  have htop : ∀ q' : Fin b, broadcastTo ⟨2, ![a, b]⟩ (shapeCast ⟨2, ![a, 1]⟩
        (multiReduction .maximumf [1] ⟨1, ![a]⟩ z 0xFF800000#32 hr hφm haccm) hc) hb (ix2 p q')
      = top (Ideal.ofBits .f32 0xFF800000#32) z p := fun q' =>
    (broadcast_col_apply _ hb p q').trans ((shapeCast_col_apply _ hc p).trans ((rowmax_apply z _ hr hφm haccm p).trans hfold))
  have hexp : ∀ q' : Fin b, exp (subf z (broadcastTo ⟨2, ![a, b]⟩ (shapeCast ⟨2, ![a, 1]⟩
        (multiReduction .maximumf [1] ⟨1, ![a]⟩ z 0xFF800000#32 hr hφm haccm) hc) hb)) (ix2 p q')
      = Ideal.exp (z (ix2 p q') - top (Ideal.ofBits .f32 0xFF800000#32) z p) := fun q' =>
    congrArg (fun t => Ideal.exp (z (ix2 p q') - t)) (htop q')
  rw [subf_apply, subf_apply, htop q]
  refine congrArg (fun t => (z (ix2 p q) - top (Ideal.ofBits .f32 0xFF800000#32) z p) - t) ?_
  refine (broadcast_col_apply _ hb p q).trans ?_
  show Ideal.log (shapeCast ⟨2, ![a, 1]⟩ _ hc (ix2 p 0)) = _
  refine congrArg Ideal.log ((shapeCast_col_apply _ hc p).trans ((rowsum_apply _ _ hr hφ0 hacc0 p).trans ?_))
  exact Finset.sum_congr rfl fun u _ => hexp u

end Cert.Lib.RowsLogSoftmax

end
-- ==== Proof.SpecMath.lean ====
/-
  The dense stages of the specification as plain functions of whole arrays, on the extended reals.

  The reference spells a product as a host dot_general, the bias-and-clamp as two broadcasts, an addition and a maximum
  with a broadcast zero, and the row-wise log-softmax as a reduce-max from −∞, a further maximum with −∞, broadcasts,
  a subtraction, exp, a reduce-add, log, a broadcast and a subtraction. Entry by entry these are the sum over the
  contracted coordinate, max (C + b, 0), and (z − top) − log Σ exp (z − top): the functions the kernel's three regions
  are shown to compute. No finiteness is asked anywhere: sums are taken over the same index sets, and the other
  operations are applied in the same order.
-/
import proofs.«116423_j20418274525980_1_alg».proof.Proof.Spec
import proofs.«116423_j20418274525980_1_alg».proof.Proof.Gen.ReferenceIdeal
import proofs.«116423_j20418274525980_1_alg».proof.Proof.LibMatProd
import proofs.«116423_j20418274525980_1_alg».proof.Proof.LibBiasRelu
import proofs.«116423_j20418274525980_1_alg».proof.Proof.LibRowVector
import proofs.«116423_j20418274525980_1_alg».proof.Proof.LibLogSoftmaxRows
import proofs.«116423_j20418274525980_1_alg».proof.Proof.LibRowsLogSoftmax

noncomputable section

namespace Cert.Spec

open Cert.ReferenceIdeal Cert.ReferenceIdeal.Facts₀ Cert.ReferenceIdeal.Facts
open Idealize.ShloMosaic Idealize.ShloMosaic.ValueIdx
open Cert.Lib.MatProd Cert.Lib.BiasRelu Cert.Lib.RowVector Cert.Lib.LogSoftmaxRows Cert.Lib.RowsLogSoftmax

/-- The first product is the sum over the 128 contracted columns. -/
theorem product1_eq (x : FVec Ideal S100000x128 .f32) (W : FVec Ideal S128x32 .f32) :
    product1 (F := Ideal) x W = matProd x W :=
  dotGeneral_eq_matProd dot_S100000x128_S128x32_S100000x32_1_0_0_1_n_n rfl rfl rfl rfl rfl rfl none .single x W

/-- The second product is the sum over the 32 contracted columns. -/
theorem product2_eq (H : FVec Ideal S100000x32 .f32) (W : FVec Ideal S32x40 .f32) :
    product2 (F := Ideal) H W = matProd H W :=
  dotGeneral_eq_matProd dot_S100000x32_S32x40_S100000x40_1_0_0_1_n_n rfl rfl rfl rfl rfl rfl none .single H W

/-- The hidden layer's activation is the bias row added to every row and clamped below at zero. -/
theorem hidden_eq (C : FVec Ideal S100000x32 .f32) (b : FVec Ideal S32 .f32) :
    hidden (F := Ideal) C b = biasRelu C (asRow b) :=
  host_eq C b bcast_S32_S1x32_1 bcast_S1x32_S100000x32_0_1 bcast_S_S100000x32

/-- The logits are the bias row added to every row. -/
theorem logits_eq (C : FVec Ideal S100000x40 .f32) (b : FVec Ideal S40 .f32) :
    logits (F := Ideal) C b = addRow C (asRow b) := by
  funext i
  obtain ⟨p, q, rfl⟩ : ∃ (p : Fin 100000) (q : Fin 40), i = ix2 p q := ⟨i 0, i 1, eq_ix2 i⟩
  unfold logits
  rw [addf_apply, bcastInDim_rows_apply, bcastInDim_eq_asRow]
  rfl

/-- The reference's log-softmax of the logits is the row-wise log-softmax of the biased rows. -/
theorem logSoftmax_eq (C : FVec Ideal S100000x40 .f32) (b : FVec Ideal S40 .f32) :
    logSoftmaxRows (F := Ideal) (logits (F := Ideal) C b) = rows (addRow C (asRow b)) := by
  funext i
  obtain ⟨p, q, rfl⟩ : ∃ (p : Fin 100000) (q : Fin 40), i = ix2 p q := ⟨i 0, i 1, eq_ix2 i⟩
  rw [rows_apply, ← logits_eq]
  exact host_apply (logits (F := Ideal) C b) reducesTo_S100000x40_S100000_d1 h_S_ bcast_S_S100000
    bcast_S100000_S100000x1_0 bcast_S100000x1_S100000x40_0_1 p q

end Cert.Spec

end
-- ==== Proof.FirstProduct.lean ====
/-
  The first pallas_call: x · W₁, five thousand rows at a time.

  At grid point t the body loads rows 5000·t … 5000·t + 4999 of x and all of W₁ and stores their product, accumulated
  into zeros, as the same rows of the result. An entry of a product depends on one row of the left operand and one
  column of the right, so those are rows of the whole product; the twenty blocks cover the 100000 rows. Hence the
  array the region leaves is the product of the two arrays it found, as one function.
-/
import proofs.«116423_j20418274525980_1_alg».proof.Proof.Gen.KernelIdeal.Frame
import proofs.«116423_j20418274525980_1_alg».proof.Proof.LibMatProd
import Idealize.ShloMosaic.Lib.Pipeline.Value
import Idealize.ShloMosaic.Lib.ValueIdx

open scoped BigOperators

noncomputable section

open Idealize.ShloMosaic Idealize.ShloMosaic.TcCoe Idealize.SL.Sem Idealize.ShloMosaic.ValueIdx
open Idealize.ShloMosaic.Pipeline (Dat)

namespace Cert.KernelIdeal.FirstProduct

open Cert.KernelIdeal Cert.KernelIdeal.Gen Cert.Lib.MatProd

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks (the change of format is the identity). -/
theorem payload_eq (x0 : Vec Ideal S5000x128 .f32) (x1 : Vec Ideal S128x32 .f32) :
    k0_pay1 x0 x1 = matProd x0 x1 := by
  unfold k0_pay1
  refine (matmul_zero_eq_matProd dot_S5000x128_S128x32_S5000x32_1_0_0_1_n_n rfl rfl rfl rfl rfl rfl none _ _).trans ?_
  rfl

/-- The index maps over the grid: the row windows move with the point, the weight window stays. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 5000·t … of the left array. -/
theorem rows_block (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : S100000x128.Idx → EReal) (ix2 r k) := by
  obtain ⟨e0, e1, -⟩ := index_maps t
  unfold iblk0
  rw [View.read_apply]
  show (V c main_arg0 : S100000x128.Idx → EReal) _ = (V c main_arg0 : S100000x128.Idx → EReal) (ix2 r k)
  refine congrArg _ ?_
  funext a
  apply Fin.ext
  match a with
  | ⟨0, _⟩ => show win0_0.index t 0 * 5000 + 1 * p.val = r.val; rw [e0, hr]; omega
  | ⟨1, _⟩ => show win0_0.index t 1 * 128 + 1 * k.val = k.val; rw [e1]; omega

/-- The weight window's block at every point is the whole weight array. -/
theorem weight_block (c : Dev nD) (t : Fin cfg0.N) (k : Fin 128) (q : Fin 32) :
    (iblk0 V c 1 t : Vec Ideal S128x32 .f32) (ix2 k q) = (V c main_arg3 : S128x32.Idx → EReal) (ix2 k q) := by
  obtain ⟨-, -, e2, e3, -⟩ := index_maps t
  unfold iblk0
  rw [View.read_apply]
  show (V c main_arg3 : S128x32.Idx → EReal) _ = (V c main_arg3 : S128x32.Idx → EReal) (ix2 k q)
  refine congrArg _ ?_
  funext a
  apply Fin.ext
  match a with
  | ⟨0, _⟩ => show win0_1.index t 0 * 128 + 1 * k.val = k.val; rw [e2]; omega
  | ⟨1, _⟩ => show win0_1.index t 1 * 32 + 1 * q.val = q.val; rw [e3]; omega

/-- What point t writes back is block t of the product of the two arrays. -/
theorem flushed_eq (c : Dev nD) (t : Fin cfg0.N) :
    (dat0 V c).flushed 2 t
      = ((cfg0.win 2).blk t).view.read (Elt Ideal) (matProd (V c main_arg0 : S100000x128.Idx → EReal) (V c main_arg3 : S128x32.Idx → EReal)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x32) hz]
  rw [payload_eq]
  obtain ⟨-, -, -, -, e4, e5⟩ := index_maps t
  have ht : t.val < 20 := Nat.lt_of_lt_of_eq t.isLt N_0
  funext j
  obtain ⟨p, q, rfl⟩ : ∃ (p : Fin 5000) (q : Fin 32), j = ix2 p q := ⟨j 0, j 1, eq_ix2 j⟩
  have hp := p.isLt
  show matProd (iblk0 V c 0 t : Vec Ideal S5000x128 .f32) (iblk0 V c 1 t : Vec Ideal S128x32 .f32) (ix2 p q)
    = matProd (V c main_arg0 : S100000x128.Idx → EReal) (V c main_arg3 : S128x32.Idx → EReal) (((cfg0.win 2).blk t).view.emb (ix2 p q))
  have he : (((cfg0.win 2).blk t).view.emb (ix2 p q) : S100000x32.Idx) = ix2 (⟨t.val * 5000 + p.val, by omega⟩ : Fin 100000) q := by
    funext a
    apply Fin.ext
    match a with
    | ⟨0, _⟩ => show win0_2.index t 0 * 5000 + 1 * p.val = t.val * 5000 + p.val; rw [e4]; omega
    | ⟨1, _⟩ => show win0_2.index t 1 * 32 + 1 * q.val = q.val; rw [e5]; omega
  rw [he]
  exact matProd_block _ _ _ _ p q _ q (fun k => rows_block V c t p k _ rfl) (fun k => weight_block V c t k q)

/-- An index of the result is in point t's block iff its row lies in the block's range. -/
theorem mem_block (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v17).slice (win0_2.rect t)).set ↔ _
  rw [View.set_slice_whole, Rect.mem_set_unit]
  exact Iff.rfl

/-- Every index of the result lies in the block of the point its row belongs to. -/
theorem covered (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  have ht : (i 0).val / 5000 < cfg0.N := by rw [hN]; omega
  refine ⟨⟨(i 0).val / 5000, ht⟩, flush0_2 _, ?_⟩
  rw [mem_block]
  obtain ⟨-, -, -, -, e4, e5⟩ := index_maps ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 32 ≤ (i 1).val ∧ (i 1).val < win0_2.index ⟨(i 0).val / 5000, ht⟩ (1 : Fin 2) * 32 + 32
    rw [e5]; omega

/-- THE ARRAY the region leaves: the product of the two arrays it found. -/
theorem array_eq (c : Dev nD) :
    (dat0 V c).arrAt 2 cfg0.N = matProd (V c main_arg0 : S100000x128.Idx → EReal) (V c main_arg3 : S128x32.Idx → EReal) :=
  (dat0 V c).arrAt_eq_of_cover 2 _ (fun t _ => flushed_eq V c t) covered

end Cert.KernelIdeal.FirstProduct

end
-- ==== Proof.SecondProduct.lean ====
/-
  The second pallas_call: relu (C + b₁) · W₂, five thousand rows at a time.

  At grid point t the body loads rows 5000·t … 5000·t + 4999 of C, the bias row and all of W₂, adds the bias to every
  row, clamps below at zero, and stores the product with W₂ (accumulated into zeros) as the same rows of the result.
  An entry of the clamped sum depends on one entry of C, and an entry of a product on one row of its left operand, so
  the block is the same rows of the whole-array function; the twenty blocks cover the 100000 rows.
-/
import proofs.«116423_j20418274525980_1_alg».proof.Proof.Gen.KernelIdeal.Frame
import proofs.«116423_j20418274525980_1_alg».proof.Proof.LibMatProd
import proofs.«116423_j20418274525980_1_alg».proof.Proof.LibBiasRelu
import Idealize.ShloMosaic.Lib.Pipeline.Value
import Idealize.ShloMosaic.Lib.ValueIdx

open scoped BigOperators

noncomputable section

open Idealize.ShloMosaic Idealize.ShloMosaic.TcCoe Idealize.SL.Sem Idealize.ShloMosaic.ValueIdx
open Idealize.ShloMosaic.Pipeline (Dat)

namespace Cert.KernelIdeal.SecondProduct

open Cert.KernelIdeal Cert.KernelIdeal.Gen Cert.Lib.MatProd Cert.Lib.BiasRelu

variable (V : (c : Dev nD) → (b : Ref sig .tc) → Buf (Elt Ideal) ((c : Thread nD τ).loc b))

theorem hz : (![0, 0] : Fin 2 → Nat) = fun _ => 0 := funext fun a => by fin_cases a <;> rfl

/-- The body's clamped sum is the bias added to every row and clamped below at zero. -/
theorem hidden_eq (b : Vec Ideal S1x32 .f32) (C : Vec Ideal S5000x32 .f32) :
    maximumf (addf (shapeCast S5000x32 C shapeCasts_S5000x32_S5000x32)
        (broadcastTo S5000x32 (shapeCast S1x32 (shapeCast S1x32 b shapeCasts_S1x32_S1x32) shapeCasts_S1x32_S1x32) broadcasts_S1x32_S5000x32))
      (broadcast S5000x32 (Scalar.ofBits (F := Ideal) .f32 0x00000000#32)) = biasRelu C b := by
  rw [shapeCast_self b]
  exact body_eq C b _ _ _

/-- The body's stored value is the product of the clamped sum with the weights. -/
theorem payload_eq (b : Vec Ideal S1x32 .f32) (C : Vec Ideal S5000x32 .f32) (W : Vec Ideal S32x40 .f32) :
    k1_pay1 b C W = matProd (biasRelu C b) W := by
  unfold k1_pay1
  exact (matmul_zero_eq_matProd dot_S5000x32_S32x40_S5000x40_1_0_0_1_n_n rfl rfl rfl rfl rfl rfl none _ _).trans
    (congrArg (fun H : Vec Ideal S5000x32 .f32 => matProd H W) (hidden_eq b C))

/-- The index maps over the grid: the row windows move with the point, the bias and weight windows stay. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left window's block at point t is rows 5000·t … of the left array. -/
theorem rows_block (c : Dev nD) (t : Fin cfg1.N) (p : Fin 5000) (k : Fin 32) (r : Fin 100000)
    (hr : r.val = t.val * 5000 + p.val) :
    (iblk1 V c 0 t : Vec Ideal S5000x32 .f32) (ix2 p k) = (V c main_v57 : S100000x32.Idx → EReal) (ix2 r k) := by
  obtain ⟨e0, e1, -⟩ := index_maps t
  unfold iblk1
  rw [View.read_apply]
  show (V c main_v57 : S100000x32.Idx → EReal) _ = (V c main_v57 : S100000x32.Idx → EReal) (ix2 r k)
  refine congrArg _ ?_
  funext a
  apply Fin.ext
  match a with
  | ⟨0, _⟩ => show win1_0.index t 0 * 5000 + 1 * p.val = r.val; rw [e0, hr]; omega
  | ⟨1, _⟩ => show win1_0.index t 1 * 32 + 1 * k.val = k.val; rw [e1]; omega

/-- The bias window's block at every point is the whole bias row. -/
theorem bias_block (c : Dev nD) (t : Fin cfg1.N) :
    (iblk1 V c 1 t : Vec Ideal S1x32 .f32) = (V c main_v58 : S1x32.Idx → EReal) := by
  obtain ⟨-, -, e2, e3, -⟩ := index_maps t
  funext y
  unfold iblk1
  rw [View.read_apply]
  show (V c main_v58 : S1x32.Idx → EReal) _ = (V c main_v58 : S1x32.Idx → EReal) y
  refine congrArg _ ?_
  funext a
  apply Fin.ext
  match a with
  | ⟨0, _⟩ => show win1_1.index t 0 * 1 + 1 * (y 0).val = (y 0).val; rw [e2]; omega
  | ⟨1, _⟩ => show win1_1.index t 1 * 32 + 1 * (y 1).val = (y 1).val; rw [e3]; omega

/-- The weight window's block at every point is the whole weight array. -/
theorem weight_block (c : Dev nD) (t : Fin cfg1.N) :
    (iblk1 V c 2 t : Vec Ideal S32x40 .f32) = (V c main_arg5 : S32x40.Idx → EReal) := by
  obtain ⟨-, -, -, -, e4, e5, -⟩ := index_maps t
  funext y
  unfold iblk1
  rw [View.read_apply]
  show (V c main_arg5 : S32x40.Idx → EReal) _ = (V c main_arg5 : S32x40.Idx → EReal) y
  refine congrArg _ ?_
  funext a
  apply Fin.ext
  match a with
  | ⟨0, _⟩ => show win1_2.index t 0 * 32 + 1 * (y 0).val = (y 0).val; rw [e4]; omega
  | ⟨1, _⟩ => show win1_2.index t 1 * 40 + 1 * (y 1).val = (y 1).val; rw [e5]; omega

/-- What point t writes back is block t of the whole-array function. -/
theorem flushed_eq (c : Dev nD) (t : Fin cfg1.N) :
    (dat1 V c).flushed 3 t
      = ((cfg1.win 3).blk t).view.read (Elt Ideal)
          (matProd (biasRelu (V c main_v57 : S100000x32.Idx → EReal) (V c main_v58 : S1x32.Idx → EReal)) (V c main_arg5 : S32x40.Idx → EReal)) := by
  show (cfg1.win 3).cut (grid1.coords t) ((dat1 V c).after 3 t) = _
  rw [after1_3]
  unfold out1_3
  rw [View.canon_unit_zero hz]
  simp only [View.ld_unit_zero (S := S5000x32) hz, View.ld_unit_zero (S := S1x32) hz, View.ld_unit_zero (S := S32x40) hz]
  rw [payload_eq, bias_block V c t, weight_block V c t]
  obtain ⟨-, -, -, -, -, -, e6, e7⟩ := index_maps t
  have ht : t.val < 20 := Nat.lt_of_lt_of_eq t.isLt N_1
  funext j
  obtain ⟨p, q, rfl⟩ : ∃ (p : Fin 5000) (q : Fin 40), j = ix2 p q := ⟨j 0, j 1, eq_ix2 j⟩
  have hp := p.isLt
  show matProd (biasRelu (iblk1 V c 0 t : Vec Ideal S5000x32 .f32) (V c main_v58 : S1x32.Idx → EReal)) (V c main_arg5 : S32x40.Idx → EReal) (ix2 p q)
    = matProd (biasRelu (V c main_v57 : S100000x32.Idx → EReal) (V c main_v58 : S1x32.Idx → EReal)) (V c main_arg5 : S32x40.Idx → EReal) (((cfg1.win 3).blk t).view.emb (ix2 p q))
  have he : (((cfg1.win 3).blk t).view.emb (ix2 p q) : S100000x40.Idx) = ix2 (⟨t.val * 5000 + p.val, by omega⟩ : Fin 100000) q := by
    funext a
    apply Fin.ext
    match a with
    | ⟨0, _⟩ => show win1_3.index t 0 * 5000 + 1 * p.val = t.val * 5000 + p.val; rw [e6]; omega
    | ⟨1, _⟩ => show win1_3.index t 1 * 40 + 1 * q.val = q.val; rw [e7]; omega
  rw [he]
  exact matProd_block _ _ _ _ p q _ q
    (fun k => biasRelu_rows _ _ _ p _ k (rows_block V c t p k _ rfl)) (fun k => rfl)

/-- An index of the result is in point t's block iff its row lies in the block's range. -/
theorem mem_block (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v59).slice (win1_3.rect t)).set ↔ _
  rw [View.set_slice_whole, Rect.mem_set_unit]
  exact Iff.rfl

/-- Every index of the result lies in the block of the point its row belongs to. -/
theorem covered (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 20 := N_1
  have ht : (i 0).val / 5000 < cfg1.N := by rw [hN]; omega
  refine ⟨⟨(i 0).val / 5000, ht⟩, flush1_3 _, ?_⟩
  rw [mem_block]
  obtain ⟨-, -, -, -, -, -, e6, e7⟩ := index_maps ⟨(i 0).val / 5000, ht⟩
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 40 ≤ (i 1).val ∧ (i 1).val < win1_3.index ⟨(i 0).val / 5000, ht⟩ (1 : Fin 2) * 40 + 40
    rw [e7]; omega

/-- THE ARRAY the region leaves: relu (C + b₁) · W₂ of the three arrays it found. -/
theorem array_eq (c : Dev nD) :
    (dat1 V c).arrAt 3 cfg1.N
      = matProd (biasRelu (V c main_v57 : S100000x32.Idx → EReal) (V c main_v58 : S1x32.Idx → EReal)) (V c main_arg5 : S32x40.Idx → EReal) :=
  (dat1 V c).arrAt_eq_of_cover 3 _ (fun t _ => flushed_eq V c t) covered

end Cert.KernelIdeal.SecondProduct

end
-- ==== Proof.LogSoftmax.lean ====
/-
  The third pallas_call: the row-wise log-softmax of C + b₂, five thousand rows at a time.

  At grid point t the body loads rows 5000·t … 5000·t + 4999 of C and the bias row, adds the bias to every row, and
  stores, for every row z, (z − top) − log Σ exp (z − top) with top the row's maximum started from −∞. A fold of max
  started from w is already at least w, so this is the entry function that takes one more maximum with w. An entry
  depends on one row only, so the block is the same rows of the whole-array function; the twenty blocks cover the
  100000 rows.
-/
import proofs.«116423_j20418274525980_1_alg».proof.Proof.Gen.KernelIdeal.Frame
import proofs.«116423_j20418274525980_1_alg».proof.Proof.LibBlockReads
import proofs.«116423_j20418274525980_1_alg».proof.Proof.LibLogSoftmaxRows
import proofs.«116423_j20418274525980_1_alg».proof.Proof.LibRowsLogSoftmax
import Idealize.ShloMosaic.Lib.Pipeline.Value
import Idealize.ShloMosaic.Lib.ValueIdx

open scoped BigOperators

noncomputable section

open Idealize.ShloMosaic Idealize.ShloMosaic.TcCoe Idealize.SL.Sem Idealize.ShloMosaic.ValueIdx
open Idealize.ShloMosaic.Pipeline (Dat)

namespace Cert.KernelIdeal.LogSoftmax

open Cert.KernelIdeal Cert.KernelIdeal.Gen Cert.Lib.RowsLogSoftmax Cert.Lib.LogSoftmaxRows

variable (V : (c : Dev nD) → (b : Ref sig .tc) → Buf (Elt Ideal) ((c : Thread nD τ).loc b))

theorem hz : (![0, 0] : Fin 2 → Nat) = fun _ => 0 := funext fun a => by fin_cases a <;> rfl

/-- The body's sum is the bias row added to every row. -/
theorem logits_eq (b : Vec Ideal S1x40 .f32) (C : Vec Ideal S5000x40 .f32) :
    (addf (shapeCast S5000x40 C shapeCasts_S5000x40_S5000x40)
      (broadcastTo S5000x40 (shapeCast S1x40 (shapeCast S1x40 b shapeCasts_S1x40_S1x40) shapeCasts_S1x40_S1x40) broadcasts_S1x40_S5000x40)
      : FVec Ideal S5000x40 .f32) = addRow C b := by
  funext i
  obtain ⟨p, q, rfl⟩ : ∃ (p : Fin 5000) (q : Fin 40), i = ix2 p q := ⟨i 0, i 1, eq_ix2 i⟩
  simp only [shapeCast_self]
  rw [addf_apply, Cert.Lib.BlockReads.broadcast_row_apply]
  rfl

/-- The body's stored value at an entry is the log-softmax entry of the biased rows. -/
theorem payload_entry (b : Vec Ideal S1x40 .f32) (C : Vec Ideal S5000x40 .f32) (p : Fin 5000) (q : Fin 40) :
    k2_pay1 b C (ix2 p q) = entry (Ideal.ofBits .f32 0xFF800000#32) (addRow C b) p q :=
  (body_entry (addf (shapeCast S5000x40 C shapeCasts_S5000x40_S5000x40)
      (broadcastTo S5000x40 (shapeCast S1x40 (shapeCast S1x40 b shapeCasts_S1x40_S1x40) shapeCasts_S1x40_S1x40) broadcasts_S1x40_S5000x40))
    reduces_S5000x40_S5000 shapeCasts_S5000_S5000x1 broadcasts_S5000x1_S5000x40 (.inl rfl) rfl (.inl rfl) rfl p q).trans
    (congrArg (fun z => entry (Ideal.ofBits .f32 0xFF800000#32) z p q) (logits_eq b C))

/-- The index maps over the grid: the row windows move with the point, the bias window stays. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point t is rows 5000·t … of the left array. -/
theorem rows_block (c : Dev nD) (t : Fin cfg2.N) (p : Fin 5000) (k : Fin 40) (r : Fin 100000)
    (hr : r.val = t.val * 5000 + p.val) :
    (iblk2 V c 0 t : Vec Ideal S5000x40 .f32) (ix2 p k) = (V c main_v99 : S100000x40.Idx → EReal) (ix2 r k) := by
  obtain ⟨e0, e1, -⟩ := index_maps t
  unfold iblk2
  rw [View.read_apply]
  show (V c main_v99 : S100000x40.Idx → EReal) _ = (V c main_v99 : S100000x40.Idx → EReal) (ix2 r k)
  refine congrArg _ ?_
  funext a
  apply Fin.ext
  match a with
  | ⟨0, _⟩ => show win2_0.index t 0 * 5000 + 1 * p.val = r.val; rw [e0, hr]; omega
  | ⟨1, _⟩ => show win2_0.index t 1 * 40 + 1 * k.val = k.val; rw [e1]; omega

/-- The bias window's block at every point is the whole bias row. -/
theorem bias_block (c : Dev nD) (t : Fin cfg2.N) :
    (iblk2 V c 1 t : Vec Ideal S1x40 .f32) = (V c main_v100 : S1x40.Idx → EReal) := by
  obtain ⟨-, -, e2, e3, -⟩ := index_maps t
  funext y
  unfold iblk2
  rw [View.read_apply]
  show (V c main_v100 : S1x40.Idx → EReal) _ = (V c main_v100 : S1x40.Idx → EReal) y
  refine congrArg _ ?_
  funext a
  apply Fin.ext
  match a with
  | ⟨0, _⟩ => show win2_1.index t 0 * 1 + 1 * (y 0).val = (y 0).val; rw [e2]; omega
  | ⟨1, _⟩ => show win2_1.index t 1 * 40 + 1 * (y 1).val = (y 1).val; rw [e3]; omega

/-- What point t writes back is block t of the whole-array function. -/
theorem flushed_eq (c : Dev nD) (t : Fin cfg2.N) :
    (dat2 V c).flushed 2 t
      = ((cfg2.win 2).blk t).view.read (Elt Ideal)
          (rows (addRow (V c main_v99 : S100000x40.Idx → EReal) (V c main_v100 : S1x40.Idx → EReal))) := by
  show (cfg2.win 2).cut (grid2.coords t) ((dat2 V c).after 2 t) = _
  rw [after2_2]
  unfold out2_2
  rw [View.canon_unit_zero hz]
  simp only [View.ld_unit_zero (S := S5000x40) hz, View.ld_unit_zero (S := S1x40) hz]
  rw [bias_block V c t]
  obtain ⟨-, -, -, -, e4, e5⟩ := index_maps t
  have ht : t.val < 20 := Nat.lt_of_lt_of_eq t.isLt N_2
  funext j
  obtain ⟨p, q, rfl⟩ : ∃ (p : Fin 5000) (q : Fin 40), j = ix2 p q := ⟨j 0, j 1, eq_ix2 j⟩
  have hp := p.isLt
  show k2_pay1 (V c main_v100 : S1x40.Idx → EReal) (iblk2 V c 0 t : Vec Ideal S5000x40 .f32) (ix2 p q)
    = rows (addRow (V c main_v99 : S100000x40.Idx → EReal) (V c main_v100 : S1x40.Idx → EReal)) (((cfg2.win 2).blk t).view.emb (ix2 p q))
  have hr : t.val * 5000 + p.val < 100000 := by omega
  have he : (((cfg2.win 2).blk t).view.emb (ix2 p q) : S100000x40.Idx) = ix2 (⟨t.val * 5000 + p.val, hr⟩ : Fin 100000) q := by
    funext a
    apply Fin.ext
    match a with
    | ⟨0, _⟩ => show win2_2.index t 0 * 5000 + 1 * p.val = t.val * 5000 + p.val; rw [e4]; omega
    | ⟨1, _⟩ => show win2_2.index t 1 * 40 + 1 * q.val = q.val; rw [e5]; omega
  rw [he, payload_entry, rows_apply]
  exact entry_rows _ _ _ p _ q fun u => by
    rw [addRow_apply, addRow_apply, rows_block V c t p u ⟨t.val * 5000 + p.val, hr⟩ rfl]

/-- An index of the result is in point t's block iff its row lies in the block's range. -/
theorem mem_block (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v101).slice (win2_2.rect t)).set ↔ _
  rw [View.set_slice_whole, Rect.mem_set_unit]
  exact Iff.rfl

/-- Every index of the result lies in the block of the point its row belongs to. -/
theorem covered (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  have ht : (i 0).val / 5000 < cfg2.N := by rw [hN]; omega
  refine ⟨⟨(i 0).val / 5000, ht⟩, flush2_2 _, ?_⟩
  rw [mem_block]
  obtain ⟨-, -, -, -, e4, e5⟩ := index_maps ⟨(i 0).val / 5000, ht⟩
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 40 ≤ (i 1).val ∧ (i 1).val < win2_2.index ⟨(i 0).val / 5000, ht⟩ (1 : Fin 2) * 40 + 40
    rw [e5]; omega

/-- THE ARRAY the region leaves: the row-wise log-softmax of C + b₂ of the two arrays it found. -/
theorem array_eq (c : Dev nD) :
    (dat2 V c).arrAt 2 cfg2.N
      = rows (addRow (V c main_v99 : S100000x40.Idx → EReal) (V c main_v100 : S1x40.Idx → EReal)) :=
  (dat2 V c).arrAt_eq_of_cover 2 _ (fun t _ => flushed_eq V c t) covered

end Cert.KernelIdeal.LogSoftmax

end
-- ==== Proof.LibSingleAssignment.lean ====
/-
  SINGLE ASSIGNMENT: reading a straight line of operations back one operation at a time.

  A straight line in which the k-th operation writes exactly the k-th buffer of a list `W` of references, each buffer
  written once and no operation reading a buffer that a later one writes, leaves every buffer at its own operation's
  function of the FINAL contents of that operation's operands: the operands are not written again, so what they hold at
  the end is what the operation read; the result is not written again, so what it holds at the end is what the
  operation wrote. The statements below say this for a line `l` followed by any further line `t`, for the operation at
  position `n` of `l`: the side conditions are memberships in literal lists of references. Program-free.
-/
import Idealize.ShloMosaic.Lib.StableHlo.Run
import Idealize.ShloMosaic.Lib.Pipeline.Frame

namespace Cert.Lib.SingleAssignment

open Idealize.ShloMosaic Idealize.ShloMosaic.StableHlo

variable {τ : Topo} {sig : RefSig} {Val : EltTy → Type}

/-- The k-th operation of `l` writes exactly the k-th reference of `W`. -/
abbrev Writes (l : List (HloOp τ sig Val)) (W : List (Ref sig .tc)) : Prop :=
  List.Forall₂ (fun op r => op.writes = {Proc.devRef (τ := τ) .tc r}) l W

/-- Two such lines in a row. -/
theorem Writes.append {l₁ l₂ : List (HloOp τ sig Val)} {W₁ W₂ : List (Ref sig .tc)} (h₁ : Writes l₁ W₁) (h₂ : Writes l₂ W₂) :
    Writes (l₁ ++ l₂) (W₁ ++ W₂) := by
  induction h₁ with
  | nil => exact h₂
  | cons h _ ih => exact List.Forall₂.cons h ih

/-- The rest of such a line from position `n` on. -/
theorem Writes.drop {l : List (HloOp τ sig Val)} {W : List (Ref sig .tc)} (h : Writes l W) (n : Nat) :
    Writes (l.drop n) (W.drop n) := by
  induction h generalizing n with
  | nil => simp only [List.drop_nil]; exact List.Forall₂.nil
  | cons hop hrest ih =>
    cases n with
    | zero => exact List.Forall₂.cons hop hrest
    | succ n => simpa only [List.drop_succ_cons] using ih n

/-- A buffer not among those a line writes keeps its contents through it. -/
theorem after_of_not_mem {l : List (HloOp τ sig Val)} {W : List (Ref sig .tc)} (h : Writes l W) {r : Ref sig .tc} (hr : r ∉ W)
    (U : Valuation τ sig Val) : after l U (Proc.devRef .tc r) = U (Proc.devRef .tc r) := by
  induction h generalizing U with
  | nil => rfl
  | cons hop _ ih =>
    rw [after_cons, ih (fun hm => hr (List.mem_cons_of_mem _ hm))]
    refine HloOp.result_of_not_mem _ _ ?_
    rw [hop, Finset.mem_singleton]
    exact devRef_ne_of_ne fun e => hr (List.mem_cons.mpr (Or.inl e))

/-- A line is its first `n` operations and then the rest. -/
theorem after_take_drop (l : List (HloOp τ sig Val)) (n : Nat) (U : Valuation τ sig Val) :
    after l U = after (l.drop n) (after (l.take n) U) := by
  conv_lhs => rw [← List.take_append_drop n l]
  exact after_append _ _ _

/-- The rest of a line from the operation at position `n`: that operation, then what follows it. -/
theorem drop_eq_cons {l : List (HloOp τ sig Val)} {n : Nat} {op : HloOp τ sig Val} (hop : l[n]? = some op) :
    l.drop n = op :: l.drop (n + 1) := by
  obtain ⟨hn, rfl⟩ := List.getElem?_eq_some_iff.mp hop
  exact List.drop_eq_getElem_cons hn

section Read

variable {l t : List (HloOp τ sig Val)} {Wl Wt : List (Ref sig .tc)}

/-- A buffer written neither from position `n` of `l` on nor by `t` holds at the end what it held before position `n`. -/
theorem final_of_before (hl : Writes l Wl) (ht : Writes t Wt) (n : Nat) {a : Ref sig .tc} (ha : a ∉ Wl.drop n ++ Wt)
    (U : Valuation τ sig Val) :
    after t (after l U) (Proc.devRef .tc a) = after (l.take n) U (Proc.devRef .tc a) := by
  rw [after_of_not_mem ht (fun h => ha (List.mem_append_right _ h)), after_take_drop l n U,
    after_of_not_mem (hl.drop n) (fun h => ha (List.mem_append_left _ h))]

/-- The buffer the operation at position `n` of `l` writes, not written again after it, holds at the end that
    operation's result on the contents before it. -/
theorem final_of_at (hl : Writes l Wl) (ht : Writes t Wt) (n : Nat) {op : HloOp τ sig Val} (hop : l[n]? = some op)
    {y : Ref sig .tc} (hy : y ∉ Wl.drop (n + 1) ++ Wt) (U : Valuation τ sig Val) :
    after t (after l U) (Proc.devRef .tc y) = op.result (after (l.take n) U) (Proc.devRef .tc y) := by
  rw [after_of_not_mem ht (fun h => hy (List.mem_append_right _ h)), after_take_drop l n U, drop_eq_cons hop, after_cons,
    after_of_not_mem (hl.drop (n + 1)) (fun h => hy (List.mem_append_left _ h))]

/-- A constant's buffer holds the constant. -/
theorem read_nullary (hl : Writes l Wl) (ht : Writes t Wt) (n : Nat) {y : Ref sig .tc} {v : y.ty.Contents Val} {hy}
    (hop : l[n]? = some (nullary (τ := τ) y v hy)) (ny : y ∉ Wl.drop (n + 1) ++ Wt) (U : Valuation τ sig Val) :
    after t (after l U) (Proc.devRef .tc y) = v := by
  rw [final_of_at hl ht n hop ny, nullary_result]

/-- A one-operand operation's buffer holds its function of the operand's final contents. -/
theorem read_unary (hl : Writes l Wl) (ht : Writes t Wt) (n : Nat) {x y : Ref sig .tc} {f : x.ty.Contents Val → y.ty.Contents Val}
    {hx hy} (hop : l[n]? = some (unary (τ := τ) x y f hx hy)) (nx : x ∉ Wl.drop n ++ Wt) (ny : y ∉ Wl.drop (n + 1) ++ Wt)
    (U : Valuation τ sig Val) :
    after t (after l U) (Proc.devRef .tc y) = f (after t (after l U) (Proc.devRef .tc x)) := by
  rw [final_of_at hl ht n hop ny, unary_result, final_of_before hl ht n nx]

/-- A two-operand operation's buffer holds its function of the operands' final contents. -/
theorem read_binary (hl : Writes l Wl) (ht : Writes t Wt) (n : Nat) {a b y : Ref sig .tc}
    {f : a.ty.Contents Val → b.ty.Contents Val → y.ty.Contents Val} {ha hb hy}
    (hop : l[n]? = some (binary (τ := τ) a b y f ha hb hy)) (na : a ∉ Wl.drop n ++ Wt) (nb : b ∉ Wl.drop n ++ Wt)
    (ny : y ∉ Wl.drop (n + 1) ++ Wt) (U : Valuation τ sig Val) :
    after t (after l U) (Proc.devRef .tc y)
      = f (after t (after l U) (Proc.devRef .tc a)) (after t (after l U) (Proc.devRef .tc b)) := by
  rw [final_of_at hl ht n hop ny, binary_result, final_of_before hl ht n na, final_of_before hl ht n nb]

/-- A three-operand operation's buffer holds its function of the operands' final contents. -/
theorem read_ternary (hl : Writes l Wl) (ht : Writes t Wt) (n : Nat) {c a b y : Ref sig .tc}
    {f : c.ty.Contents Val → a.ty.Contents Val → b.ty.Contents Val → y.ty.Contents Val} {hc ha hb hy}
    (hop : l[n]? = some (ternary (τ := τ) c a b y f hc ha hb hy)) (nc : c ∉ Wl.drop n ++ Wt) (na : a ∉ Wl.drop n ++ Wt)
    (nb : b ∉ Wl.drop n ++ Wt) (ny : y ∉ Wl.drop (n + 1) ++ Wt) (U : Valuation τ sig Val) :
    after t (after l U) (Proc.devRef .tc y)
      = f (after t (after l U) (Proc.devRef .tc c)) (after t (after l U) (Proc.devRef .tc a))
          (after t (after l U) (Proc.devRef .tc b)) := by
  rw [final_of_at hl ht n hop ny, ternary_result, final_of_before hl ht n nc, final_of_before hl ht n na,
    final_of_before hl ht n nb]

/-- A reshape's buffer holds the operand's final contents at the new shape. -/
theorem read_reshape (hl : Writes l Wl) (ht : Writes t Wt) (n : Nat) {x y : Ref sig .tc} {he hn hx hy}
    (hop : l[n]? = some (reshape (τ := τ) (Val := Val) x y he hn hx hy)) (nx : x ∉ Wl.drop n ++ Wt)
    (ny : y ∉ Wl.drop (n + 1) ++ Wt) (U : Valuation τ sig Val) :
    after t (after l U) (Proc.devRef .tc y)
      = fun i => he ▸ shapeCast y.ty.shape (after t (after l U) (Proc.devRef .tc x)) hn i := by
  rw [final_of_at hl ht n hop ny, reshape_result, final_of_before hl ht n nx]

end Read

end Cert.Lib.SingleAssignment
-- ==== Proof.LibTypedReads.lean ====
/-
  Reading a typed reference after a typed host operation.

  An outlined host function names its values by typed references: a buffer together with the fact that the buffer's
  type is the value's. Contents pass between the two types along that fact, and an operation at typed references is
  the operation at their buffers with the operands carried back and the result carried over. `read x V` is the value at
  x in the contents V, at the value's type. A typed unary (ternary) operation leaves at its result the function of
  what was read at its operands, and leaves every other typed reference reading what it read before. The carrying
  there and back cancels for any typed reference, whatever its buffer, so nothing about a particular program's table of
  buffers is computed. Nothing here mentions a program.
-/
import Idealize.ShloMosaic.Lib.StableHlo
import Idealize.ShloMosaic.Lib.StableHlo.Run

noncomputable section

namespace Cert.Lib.TypedReads

open Idealize.ShloMosaic Idealize.ShloMosaic.StableHlo

variable {τ : Topo} {sig : RefSig} {Val : EltTy → Type} {Tx Ta Tb Tc Ty Tz : BufTy}

/-- Carried to the buffer's type and back, a value is unchanged. -/
theorem ofBuf_toBuf (y : TRef sig Ty) (v : Ty.Contents Val) : y.ofBuf (y.toBuf v) = v := by
  obtain ⟨r, h, hd, hu⟩ := y
  subst h
  rfl

/-- The value at a typed reference in the contents V. -/
def read (x : TRef sig Tx) (V : Valuation τ sig Val) : Tx.Contents Val := x.ofBuf (V (Proc.devRef .tc x.ref))

/-- A typed unary operation leaves its function of what its operand read. -/
theorem unary_read (x : TRef sig Tx) (y : TRef sig Ty) (f : Tx.Contents Val → Ty.Contents Val)
    (V : Valuation τ sig Val) : read y ((TRef.unary (τ := τ) x y f).result V) = f (read x V) := by
  unfold read TRef.unary
  rw [StableHlo.unary_result]
  exact ofBuf_toBuf y _

/-- … and leaves any other typed reference as it read. -/
theorem unary_read_ne (x : TRef sig Tx) (y : TRef sig Ty) (f : Tx.Contents Val → Ty.Contents Val)
    (V : Valuation τ sig Val) (z : TRef sig Tz) (h : z.ref ≠ y.ref) :
    read z ((TRef.unary (τ := τ) x y f).result V) = read z V := by
  unfold read TRef.unary
  rw [StableHlo.unary_result_ne]
  exact h

/-- A typed ternary operation leaves its function of what its operands read. -/
theorem ternary_read (c : TRef sig Tc) (a : TRef sig Ta) (b : TRef sig Tb) (y : TRef sig Ty)
    (f : Tc.Contents Val → Ta.Contents Val → Tb.Contents Val → Ty.Contents Val) (V : Valuation τ sig Val) :
    read y ((TRef.ternary (τ := τ) c a b y f).result V) = f (read c V) (read a V) (read b V) := by
  unfold read TRef.ternary
  rw [StableHlo.ternary_result]
  exact ofBuf_toBuf y _

end Cert.Lib.TypedReads

end
-- ==== Proof.KernelValue.lean ====
/-
  The kernel program's result as the specification's function of its seven arguments.

  The result buffer is read back through @main's nine segments: the third region's array is the row-wise
  log-softmax of what the stretch before it left (the incidence operator applied to the second region's array, plus
  the bias); the second region's array is relu (C + b₁) · W₂ of what the stretch before IT left (the incidence operator
  applied to the first region's array); the first region's array is x · W₁. The inverse degrees are computed once,
  before the first region, and no later segment writes them or an argument, so every later read of them is a read of
  the launch contents' function. Every host operation writes one buffer of its own, which is what lets a buffer be
  followed back through the stretches that do not write it.
-/
import proofs.«116423_j20418274525980_1_alg».proof.Proof.Gen.KernelIdeal.Frame
import proofs.«116423_j20418274525980_1_alg».proof.Proof.Spec
import proofs.«116423_j20418274525980_1_alg».proof.Proof.SpecMath
import proofs.«116423_j20418274525980_1_alg».proof.Proof.FirstProduct
import proofs.«116423_j20418274525980_1_alg».proof.Proof.SecondProduct
import proofs.«116423_j20418274525980_1_alg».proof.Proof.LogSoftmax
import proofs.«116423_j20418274525980_1_alg».proof.Proof.LibSingleAssignment
import proofs.«116423_j20418274525980_1_alg».proof.Proof.LibRowVector
import proofs.«116423_j20418274525980_1_alg».proof.Proof.LibTypedReads

noncomputable section

namespace Cert.KernelIdeal.Value

open Cert.KernelIdeal Cert.KernelIdeal.Gen
open Idealize.ShloMosaic Idealize.ShloMosaic.TcCoe Idealize.SL.Sem Idealize.ShloMosaic.StableHlo
open Cert.Lib.SingleAssignment

variable (m : (ℓ : Loc nD τ sig) → Buf (Elt Ideal) ℓ) (ρ : Dev nD → PrngReg)

/-! ## Which buffer each host operation writes -/

theorem writes0 : Writes (hostOps0 (F := Ideal)) [main_cst, main_v0, main_cst_0, main_v1, main_v2, main_v3, main_cst_1, main_v4, main_v5, main_v6, main_cst_2, main_v7, main_v8, main_cst_3, main_v9, main_v10, main_cst_4] := by
  repeat' first | exact List.Forall₂.nil | refine List.Forall₂.cons rfl ?_
theorem writes0_1 : Writes (hostOps0_1 (F := Ideal)) [main_call0_v0, main_call0_v1, main_v11] := by
  repeat' first | exact List.Forall₂.nil | refine List.Forall₂.cons rfl ?_
theorem writes0_2 : Writes (hostOps0_2 (F := Ideal)) [main_cst_5, main_v12, main_v13, main_cst_6, main_v14, main_v15, main_cst_7] := by
  repeat' first | exact List.Forall₂.nil | refine List.Forall₂.cons rfl ?_
theorem writes0_3 : Writes (hostOps0_3 (F := Ideal)) [main_call1_v0, main_call1_v1, main_v16] := by
  repeat' first | exact List.Forall₂.nil | refine List.Forall₂.cons rfl ?_
theorem writes1 : Writes (hostOps1 (F := Ideal)) [main_c, main_v18, main_v19, main_c_8, main_v20, main_v21, main_v22, main_v23, main_v24, main_v25, main_c_9, main_v26, main_v27, main_c_10, main_v28, main_v29, main_v30, main_v31, main_v32, main_v33, main_v34, main_cst_11, main_v35, main_v36, main_v37, main_c_12, main_v38, main_v39, main_c_13, main_v40, main_v41, main_v42, main_v43, main_v44, main_v45, main_c_14, main_v46, main_v47, main_c_15, main_v48, main_v49, main_v50, main_v51, main_v52, main_v53, main_v54, main_cst_16, main_v55, main_v56, main_v57, main_v58] := by
  repeat' first | exact List.Forall₂.nil | refine List.Forall₂.cons rfl ?_
theorem writes2 : Writes (hostOps2 (F := Ideal)) [main_c_17, main_v60, main_v61, main_c_18, main_v62, main_v63, main_v64, main_v65, main_v66, main_v67, main_c_19, main_v68, main_v69, main_c_20, main_v70, main_v71, main_v72, main_v73, main_v74, main_v75, main_v76, main_cst_21, main_v77, main_v78, main_v79, main_c_22, main_v80, main_v81, main_c_23, main_v82, main_v83, main_v84, main_v85, main_v86, main_v87, main_c_24, main_v88, main_v89, main_c_25, main_v90, main_v91, main_v92, main_v93, main_v94, main_v95, main_v96, main_cst_26, main_v97, main_v98, main_v99, main_v100] := by
  repeat' first | exact List.Forall₂.nil | refine List.Forall₂.cons rfl ?_

/-! ## Following a buffer back through the segments that do not write it -/

/-- A buffer none of the four stretches before the first region writes holds its launch contents there. -/
theorem launch_at4 (c : Dev nD) (r : Ref sig .tc) (h0 : r ∉ [main_cst, main_v0, main_cst_0, main_v1, main_v2, main_v3, main_cst_1, main_v4, main_v5, main_v6, main_cst_2, main_v7, main_v8, main_cst_3, main_v9, main_v10, main_cst_4])
    (h1 : r ∉ [main_call0_v0, main_call0_v1, main_v11]) (h2 : r ∉ [main_cst_5, main_v12, main_v13, main_cst_6, main_v14, main_v15, main_cst_7]) (h3 : r ∉ [main_call1_v0, main_call1_v1, main_v16]) :
    W4 m ρ c (Proc.devRef .tc r) = m ((c : Thread nD τ).loc r) :=
  (after_of_not_mem writes0_3 h3 _).trans ((after_of_not_mem writes0_2 h2 _).trans
    ((after_of_not_mem writes0_1 h1 _).trans ((after_of_not_mem writes0 h0 _).trans rfl)))

/-- A buffer that is no array of the first region holds after it what it held before it. -/
theorem at5 (c : Dev nD) (r : Ref sig .tc) (hw : ∀ w, Pipeline.arrRef spec0 w ≠ r) :
    W5 m ρ c (Proc.devRef .tc r) = W4 m ρ c (Proc.devRef .tc r) := W5_of_ne m ρ c r hw

/-- A buffer neither the first region nor the stretch after it nor the second region writes. -/
theorem at7 (c : Dev nD) (r : Ref sig .tc) (hw1 : ∀ w, Pipeline.arrRef spec1 w ≠ r)
    (h1 : r ∉ [main_c, main_v18, main_v19, main_c_8, main_v20, main_v21, main_v22, main_v23, main_v24, main_v25, main_c_9, main_v26, main_v27, main_c_10, main_v28, main_v29, main_v30, main_v31, main_v32, main_v33, main_v34, main_cst_11, main_v35, main_v36, main_v37, main_c_12, main_v38, main_v39, main_c_13, main_v40, main_v41, main_v42, main_v43, main_v44, main_v45, main_c_14, main_v46, main_v47, main_c_15, main_v48, main_v49, main_v50, main_v51, main_v52, main_v53, main_v54, main_cst_16, main_v55, main_v56, main_v57, main_v58]) (hw0 : ∀ w, Pipeline.arrRef spec0 w ≠ r) :
    W7 m ρ c (Proc.devRef .tc r) = W4 m ρ c (Proc.devRef .tc r) :=
  (W7_of_ne m ρ c r hw1).trans ((after_of_not_mem writes1 h1 _).trans (W5_of_ne m ρ c r hw0))

/-! ## A typed reference at a literal buffer carries contents unchanged -/

theorem toBuf_main_v11 (h1 : main_v11.ty = (⟨S100000, .f32⟩ : BufTy)) (h2 : main_v11.space ≠ .host) (h3 : main_v11.isScoped = false) (v : (⟨S100000, .f32⟩ : BufTy).Contents (Elt Ideal)) :
    (TRef.of (sig := sig) main_v11 h1 h2 h3).toBuf v = v := rfl
theorem ofBuf_main_v8 (h1 : main_v8.ty = (⟨S100000, .i1⟩ : BufTy)) (h2 : main_v8.space ≠ .host) (h3 : main_v8.isScoped = false) (v : main_v8.ty.Contents (Elt Ideal)) :
    (TRef.of (sig := sig) main_v8 h1 h2 h3).ofBuf v = v := rfl
theorem ofBuf_main_v10 (h1 : main_v10.ty = (⟨S100000, .f32⟩ : BufTy)) (h2 : main_v10.space ≠ .host) (h3 : main_v10.isScoped = false) (v : main_v10.ty.Contents (Elt Ideal)) :
    (TRef.of (sig := sig) main_v10 h1 h2 h3).ofBuf v = v := rfl
theorem ofBuf_main_cst_4 (h1 : main_cst_4.ty = (⟨S_, .f32⟩ : BufTy)) (h2 : main_cst_4.space ≠ .host) (h3 : main_cst_4.isScoped = false) (v : main_cst_4.ty.Contents (Elt Ideal)) :
    (TRef.of (sig := sig) main_cst_4 h1 h2 h3).ofBuf v = v := rfl
theorem toBuf_main_v16 (h1 : main_v16.ty = (⟨S50000, .f32⟩ : BufTy)) (h2 : main_v16.space ≠ .host) (h3 : main_v16.isScoped = false) (v : (⟨S50000, .f32⟩ : BufTy).Contents (Elt Ideal)) :
    (TRef.of (sig := sig) main_v16 h1 h2 h3).toBuf v = v := rfl
theorem ofBuf_main_v13 (h1 : main_v13.ty = (⟨S50000, .i1⟩ : BufTy)) (h2 : main_v13.space ≠ .host) (h3 : main_v13.isScoped = false) (v : main_v13.ty.Contents (Elt Ideal)) :
    (TRef.of (sig := sig) main_v13 h1 h2 h3).ofBuf v = v := rfl
theorem ofBuf_main_v15 (h1 : main_v15.ty = (⟨S50000, .f32⟩ : BufTy)) (h2 : main_v15.space ≠ .host) (h3 : main_v15.isScoped = false) (v : main_v15.ty.Contents (Elt Ideal)) :
    (TRef.of (sig := sig) main_v15 h1 h2 h3).ofBuf v = v := rfl
theorem ofBuf_main_cst_7 (h1 : main_cst_7.ty = (⟨S_, .f32⟩ : BufTy)) (h2 : main_cst_7.space ≠ .host) (h3 : main_cst_7.isScoped = false) (v : main_cst_7.ty.Contents (Elt Ideal)) :
    (TRef.of (sig := sig) main_cst_7 h1 h2 h3).ofBuf v = v := rfl

/-! ## What the host stretches compute -/

open Cert.Lib.TypedReads Cert.Lib.RowVector Cert.Lib.MatProd Cert.Lib.BiasRelu Cert.Lib.RowsLogSoftmax

/-- Before the first region: the inverse node degrees, from the node indices at launch. -/
theorem inv_node (c : Dev nD) :
    W4 m ρ c (Proc.devRef .tc main_v11) = Cert.Spec.invNodeDegree (F := Ideal) (m ((c : Thread nD τ).loc main_arg1)) := by
  show StableHlo.after hostOps0_3 (StableHlo.after hostOps0_2 (StableHlo.after hostOps0_1 (StableHlo.after hostOps0 (W0 m ρ c)))) (Proc.devRef .tc main_v11) = _
  after_results_simp
  rw [toBuf_main_v11, ofBuf_main_v8, ofBuf_main_v10, ofBuf_toBuf, ofBuf_toBuf, ofBuf_main_cst_4]
  rfl

/-- Before the first region: the inverse hyperedge sizes, from the hyperedge indices at launch. -/
theorem inv_edge (c : Dev nD) :
    W4 m ρ c (Proc.devRef .tc main_v16) = Cert.Spec.invEdgeSize (F := Ideal) (m ((c : Thread nD τ).loc main_arg2)) := by
  show StableHlo.after hostOps0_3 (StableHlo.after hostOps0_2 (StableHlo.after hostOps0_1 (StableHlo.after hostOps0 (W0 m ρ c)))) (Proc.devRef .tc main_v16) = _
  after_results_simp
  rw [toBuf_main_v16, ofBuf_main_v13, ofBuf_main_v15, ofBuf_toBuf, ofBuf_toBuf, ofBuf_main_cst_7]
  rfl

/-- Between the first two regions: the incidence operator on the first region's array. -/
theorem spread1 (c : Dev nD) :
    W6 m ρ c (Proc.devRef .tc main_v57) = Cert.Spec.spread32 (F := Ideal) (W5 m ρ c (Proc.devRef .tc main_v17))
      (W5 m ρ c (Proc.devRef .tc main_arg1)) (W5 m ρ c (Proc.devRef .tc main_arg2))
      (W5 m ρ c (Proc.devRef .tc main_v11)) (W5 m ρ c (Proc.devRef .tc main_v16)) := by
  show StableHlo.after hostOps1 (W5 m ρ c) (Proc.devRef .tc main_v57) = _
  after_results_simp
  rfl

/-- Between the first two regions: the first bias as a row. -/
theorem bias1 (c : Dev nD) :
    W6 m ρ c (Proc.devRef .tc main_v58) = asRow (W5 m ρ c (Proc.devRef .tc main_arg4) : S32.Idx → EReal) := by
  show StableHlo.after hostOps1 (W5 m ρ c) (Proc.devRef .tc main_v58) = _
  after_results_simp
  show (fun i => shapeCast S1x32 (W5 m ρ c (Proc.devRef .tc main_arg4) : S32.Idx → EReal) shapeCasts_S32_S1x32 i) = _
  exact shapeCast_eq_asRow _ _

/-- Between the last two regions: the incidence operator on the second region's array. -/
theorem spread2 (c : Dev nD) :
    W8 m ρ c (Proc.devRef .tc main_v99) = Cert.Spec.spread40 (F := Ideal) (W7 m ρ c (Proc.devRef .tc main_v59))
      (W7 m ρ c (Proc.devRef .tc main_arg1)) (W7 m ρ c (Proc.devRef .tc main_arg2))
      (W7 m ρ c (Proc.devRef .tc main_v11)) (W7 m ρ c (Proc.devRef .tc main_v16)) := by
  show StableHlo.after hostOps2 (W7 m ρ c) (Proc.devRef .tc main_v99) = _
  after_results_simp
  rfl

/-- Between the last two regions: the second bias as a row. -/
theorem bias2 (c : Dev nD) :
    W8 m ρ c (Proc.devRef .tc main_v100) = asRow (W7 m ρ c (Proc.devRef .tc main_arg6) : S40.Idx → EReal) := by
  show StableHlo.after hostOps2 (W7 m ρ c) (Proc.devRef .tc main_v100) = _
  after_results_simp
  show (fun i => shapeCast S1x40 (W7 m ρ c (Proc.devRef .tc main_arg6) : S40.Idx → EReal) shapeCasts_S40_S1x40 i) = _
  exact shapeCast_eq_asRow _ _

/-! ## The result, segment by segment -/

/-- The result buffer holds the specification's function of the seven launch arguments. -/
theorem result_eq (c : Dev nD) :
    W9 m ρ c (Proc.devRef .tc main_v101)
      = Cert.Spec.out (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  -- the arguments and the inverse degrees where each later segment reads them
  have a4_0 : W4 m ρ c (Proc.devRef .tc main_arg0) = m ((c : Thread nD τ).loc main_arg0) := launch_at4 m ρ c main_arg0 (by decide) (by decide) (by decide) (by decide)
  have a4_3 : W4 m ρ c (Proc.devRef .tc main_arg3) = m ((c : Thread nD τ).loc main_arg3) := launch_at4 m ρ c main_arg3 (by decide) (by decide) (by decide) (by decide)
  have a5_1 : W5 m ρ c (Proc.devRef .tc main_arg1) = m ((c : Thread nD τ).loc main_arg1) :=
    (at5 m ρ c main_arg1 (by decide)).trans (launch_at4 m ρ c main_arg1 (by decide) (by decide) (by decide) (by decide))
  have a5_2 : W5 m ρ c (Proc.devRef .tc main_arg2) = m ((c : Thread nD τ).loc main_arg2) :=
    (at5 m ρ c main_arg2 (by decide)).trans (launch_at4 m ρ c main_arg2 (by decide) (by decide) (by decide) (by decide))
  have a5_4 : W5 m ρ c (Proc.devRef .tc main_arg4) = m ((c : Thread nD τ).loc main_arg4) :=
    (at5 m ρ c main_arg4 (by decide)).trans (launch_at4 m ρ c main_arg4 (by decide) (by decide) (by decide) (by decide))
  have a5_5 : W5 m ρ c (Proc.devRef .tc main_arg5) = m ((c : Thread nD τ).loc main_arg5) :=
    (at5 m ρ c main_arg5 (by decide)).trans (launch_at4 m ρ c main_arg5 (by decide) (by decide) (by decide) (by decide))
  have a5_dn : W5 m ρ c (Proc.devRef .tc main_v11) = Cert.Spec.invNodeDegree (F := Ideal) (m ((c : Thread nD τ).loc main_arg1)) :=
    (at5 m ρ c main_v11 (by decide)).trans (inv_node m ρ c)
  have a5_be : W5 m ρ c (Proc.devRef .tc main_v16) = Cert.Spec.invEdgeSize (F := Ideal) (m ((c : Thread nD τ).loc main_arg2)) :=
    (at5 m ρ c main_v16 (by decide)).trans (inv_edge m ρ c)
  have a6_5 : W6 m ρ c (Proc.devRef .tc main_arg5) = m ((c : Thread nD τ).loc main_arg5) :=
    (after_of_not_mem writes1 (by decide) _).trans a5_5
  have a7_1 : W7 m ρ c (Proc.devRef .tc main_arg1) = m ((c : Thread nD τ).loc main_arg1) :=
    (at7 m ρ c main_arg1 (by decide) (by decide) (by decide)).trans (launch_at4 m ρ c main_arg1 (by decide) (by decide) (by decide) (by decide))
  have a7_2 : W7 m ρ c (Proc.devRef .tc main_arg2) = m ((c : Thread nD τ).loc main_arg2) :=
    (at7 m ρ c main_arg2 (by decide) (by decide) (by decide)).trans (launch_at4 m ρ c main_arg2 (by decide) (by decide) (by decide) (by decide))
  have a7_6 : W7 m ρ c (Proc.devRef .tc main_arg6) = m ((c : Thread nD τ).loc main_arg6) :=
    (at7 m ρ c main_arg6 (by decide) (by decide) (by decide)).trans (launch_at4 m ρ c main_arg6 (by decide) (by decide) (by decide) (by decide))
  have a7_dn : W7 m ρ c (Proc.devRef .tc main_v11) = Cert.Spec.invNodeDegree (F := Ideal) (m ((c : Thread nD τ).loc main_arg1)) :=
    (at7 m ρ c main_v11 (by decide) (by decide) (by decide)).trans (inv_node m ρ c)
  have a7_be : W7 m ρ c (Proc.devRef .tc main_v16) = Cert.Spec.invEdgeSize (F := Ideal) (m ((c : Thread nD τ).loc main_arg2)) :=
    (at7 m ρ c main_v16 (by decide) (by decide) (by decide)).trans (inv_edge m ρ c)
  -- the first region's array
  have r0 : W5 m ρ c (Proc.devRef .tc main_v17)
      = matProd (m ((c : Thread nD τ).loc main_arg0) : S100000x128.Idx → EReal) (m ((c : Thread nD τ).loc main_arg3) : S128x32.Idx → EReal) := by
    refine (W5_arr m ρ c 2).trans ((Cert.KernelIdeal.FirstProduct.array_eq (V4 m ρ) c).trans ?_)
    show matProd (W4 m ρ c (Proc.devRef .tc main_arg0) : S100000x128.Idx → EReal) (W4 m ρ c (Proc.devRef .tc main_arg3) : S128x32.Idx → EReal) = _
    rw [a4_0, a4_3]
  -- the stretch after it
  have s1 := spread1 m ρ c
  rw [r0, a5_1, a5_2, a5_dn, a5_be] at s1
  have b1 := bias1 m ρ c
  rw [a5_4] at b1
  -- the second region's array
  have r1 : W7 m ρ c (Proc.devRef .tc main_v59)
      = matProd (biasRelu (W6 m ρ c (Proc.devRef .tc main_v57) : S100000x32.Idx → EReal) (W6 m ρ c (Proc.devRef .tc main_v58) : S1x32.Idx → EReal))
          (W6 m ρ c (Proc.devRef .tc main_arg5) : S32x40.Idx → EReal) :=
    (W7_arr m ρ c 3).trans (Cert.KernelIdeal.SecondProduct.array_eq (V6 m ρ) c)
  rw [s1, b1, a6_5] at r1
  -- the stretch after it
  have s2 := spread2 m ρ c
  rw [r1, a7_1, a7_2, a7_dn, a7_be] at s2
  have b2 := bias2 m ρ c
  rw [a7_6] at b2
  -- the third region's array
  have r2 : W9 m ρ c (Proc.devRef .tc main_v101)
      = rows (addRow (W8 m ρ c (Proc.devRef .tc main_v99) : S100000x40.Idx → EReal) (W8 m ρ c (Proc.devRef .tc main_v100) : S1x40.Idx → EReal)) :=
    (W9_arr m ρ c 2).trans (Cert.KernelIdeal.LogSoftmax.array_eq (V8 m ρ) c)
  rw [s2, b2] at r2
  -- the specification, stage by stage
  rw [r2]
  unfold Cert.Spec.out
  rw [Cert.Spec.logSoftmax_eq, Cert.Spec.product2_eq, Cert.Spec.hidden_eq, Cert.Spec.product1_eq]

end Cert.KernelIdeal.Value

end
-- ==== Proof.RefValue.lean ====
/-
  The reference program's run, with its result stated as the specification's function of the arguments.

  The reference is a straight line of 186 host operations, each writing a buffer of its own. Its result buffer after
  the line is those operations composed, outermost last; the functions jax outlined (where, relu, log_softmax) name
  their values by typed references, whose contents pass to and from the buffers' own types unchanged. With those
  passages removed the composed term is, operation for operation, the specification: the two products, the
  bias-and-clamp, the incidence operator with the inverse degrees recomputed at each use, the bias and the row-wise
  log-softmax.
-/
import proofs.«116423_j20418274525980_1_alg».proof.Proof.RefRunP
import proofs.«116423_j20418274525980_1_alg».proof.Proof.Spec
import proofs.«116423_j20418274525980_1_alg».proof.Proof.LibTypedReads
import Idealize.ShloMosaic.PureOps.Ideal

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo
open Cert.Lib.TypedReads

/-! ## A typed reference at a literal buffer carries contents unchanged -/

theorem toBuf_main_v123 (h1 : main_v123.ty = (⟨S100000x40, .f32⟩ : BufTy)) (h2 : main_v123.space ≠ .host) (h3 : main_v123.isScoped = false) (v : (⟨S100000x40, .f32⟩ : BufTy).Contents (Elt Ideal)) :
    (TRef.of (sig := sig) main_v123 h1 h2 h3).toBuf v = v := rfl
theorem toBuf_main_v71 (h1 : main_v71.ty = (⟨S100000, .f32⟩ : BufTy)) (h2 : main_v71.space ≠ .host) (h3 : main_v71.isScoped = false) (v : (⟨S100000, .f32⟩ : BufTy).Contents (Elt Ideal)) :
    (TRef.of (sig := sig) main_v71 h1 h2 h3).toBuf v = v := rfl
theorem toBuf_main_v79 (h1 : main_v79.ty = (⟨S50000, .f32⟩ : BufTy)) (h2 : main_v79.space ≠ .host) (h3 : main_v79.isScoped = false) (v : (⟨S50000, .f32⟩ : BufTy).Contents (Elt Ideal)) :
    (TRef.of (sig := sig) main_v79 h1 h2 h3).toBuf v = v := rfl
theorem toBuf_main_v61 (h1 : main_v61.ty = (⟨S100000x32, .f32⟩ : BufTy)) (h2 : main_v61.space ≠ .host) (h3 : main_v61.isScoped = false) (v : (⟨S100000x32, .f32⟩ : BufTy).Contents (Elt Ideal)) :
    (TRef.of (sig := sig) main_v61 h1 h2 h3).toBuf v = v := rfl
theorem toBuf_main_v9 (h1 : main_v9.ty = (⟨S100000, .f32⟩ : BufTy)) (h2 : main_v9.space ≠ .host) (h3 : main_v9.isScoped = false) (v : (⟨S100000, .f32⟩ : BufTy).Contents (Elt Ideal)) :
    (TRef.of (sig := sig) main_v9 h1 h2 h3).toBuf v = v := rfl
theorem toBuf_main_v17 (h1 : main_v17.ty = (⟨S50000, .f32⟩ : BufTy)) (h2 : main_v17.space ≠ .host) (h3 : main_v17.isScoped = false) (v : (⟨S50000, .f32⟩ : BufTy).Contents (Elt Ideal)) :
    (TRef.of (sig := sig) main_v17 h1 h2 h3).toBuf v = v := rfl
theorem ofBuf_main_v122 (h1 : main_v122.ty = (⟨S100000x40, .f32⟩ : BufTy)) (h2 : main_v122.space ≠ .host) (h3 : main_v122.isScoped = false) (v : main_v122.ty.Contents (Elt Ideal)) :
    (TRef.of (sig := sig) main_v122 h1 h2 h3).ofBuf v = v := rfl
theorem ofBuf_main_v68 (h1 : main_v68.ty = (⟨S100000, .i1⟩ : BufTy)) (h2 : main_v68.space ≠ .host) (h3 : main_v68.isScoped = false) (v : main_v68.ty.Contents (Elt Ideal)) :
    (TRef.of (sig := sig) main_v68 h1 h2 h3).ofBuf v = v := rfl
theorem ofBuf_main_v70 (h1 : main_v70.ty = (⟨S100000, .f32⟩ : BufTy)) (h2 : main_v70.space ≠ .host) (h3 : main_v70.isScoped = false) (v : main_v70.ty.Contents (Elt Ideal)) :
    (TRef.of (sig := sig) main_v70 h1 h2 h3).ofBuf v = v := rfl
theorem ofBuf_main_cst_21 (h1 : main_cst_21.ty = (⟨S_, .f32⟩ : BufTy)) (h2 : main_cst_21.space ≠ .host) (h3 : main_cst_21.isScoped = false) (v : main_cst_21.ty.Contents (Elt Ideal)) :
    (TRef.of (sig := sig) main_cst_21 h1 h2 h3).ofBuf v = v := rfl
theorem ofBuf_main_v76 (h1 : main_v76.ty = (⟨S50000, .i1⟩ : BufTy)) (h2 : main_v76.space ≠ .host) (h3 : main_v76.isScoped = false) (v : main_v76.ty.Contents (Elt Ideal)) :
    (TRef.of (sig := sig) main_v76 h1 h2 h3).ofBuf v = v := rfl
theorem ofBuf_main_v78 (h1 : main_v78.ty = (⟨S50000, .f32⟩ : BufTy)) (h2 : main_v78.space ≠ .host) (h3 : main_v78.isScoped = false) (v : main_v78.ty.Contents (Elt Ideal)) :
    (TRef.of (sig := sig) main_v78 h1 h2 h3).ofBuf v = v := rfl
theorem ofBuf_main_cst_25 (h1 : main_cst_25.ty = (⟨S_, .f32⟩ : BufTy)) (h2 : main_cst_25.space ≠ .host) (h3 : main_cst_25.isScoped = false) (v : main_cst_25.ty.Contents (Elt Ideal)) :
    (TRef.of (sig := sig) main_cst_25 h1 h2 h3).ofBuf v = v := rfl
theorem ofBuf_main_v60 (h1 : main_v60.ty = (⟨S100000x32, .f32⟩ : BufTy)) (h2 : main_v60.space ≠ .host) (h3 : main_v60.isScoped = false) (v : main_v60.ty.Contents (Elt Ideal)) :
    (TRef.of (sig := sig) main_v60 h1 h2 h3).ofBuf v = v := rfl
theorem ofBuf_main_v6 (h1 : main_v6.ty = (⟨S100000, .i1⟩ : BufTy)) (h2 : main_v6.space ≠ .host) (h3 : main_v6.isScoped = false) (v : main_v6.ty.Contents (Elt Ideal)) :
    (TRef.of (sig := sig) main_v6 h1 h2 h3).ofBuf v = v := rfl
theorem ofBuf_main_v8 (h1 : main_v8.ty = (⟨S100000, .f32⟩ : BufTy)) (h2 : main_v8.space ≠ .host) (h3 : main_v8.isScoped = false) (v : main_v8.ty.Contents (Elt Ideal)) :
    (TRef.of (sig := sig) main_v8 h1 h2 h3).ofBuf v = v := rfl
theorem ofBuf_main_cst_3 (h1 : main_cst_3.ty = (⟨S_, .f32⟩ : BufTy)) (h2 : main_cst_3.space ≠ .host) (h3 : main_cst_3.isScoped = false) (v : main_cst_3.ty.Contents (Elt Ideal)) :
    (TRef.of (sig := sig) main_cst_3 h1 h2 h3).ofBuf v = v := rfl
theorem ofBuf_main_v14 (h1 : main_v14.ty = (⟨S50000, .i1⟩ : BufTy)) (h2 : main_v14.space ≠ .host) (h3 : main_v14.isScoped = false) (v : main_v14.ty.Contents (Elt Ideal)) :
    (TRef.of (sig := sig) main_v14 h1 h2 h3).ofBuf v = v := rfl
theorem ofBuf_main_v16 (h1 : main_v16.ty = (⟨S50000, .f32⟩ : BufTy)) (h2 : main_v16.space ≠ .host) (h3 : main_v16.isScoped = false) (v : main_v16.ty.Contents (Elt Ideal)) :
    (TRef.of (sig := sig) main_v16 h1 h2 h3).ofBuf v = v := rfl
theorem ofBuf_main_cst_7 (h1 : main_cst_7.ty = (⟨S_, .f32⟩ : BufTy)) (h2 : main_cst_7.space ≠ .host) (h3 : main_cst_7.isScoped = false) (v : main_cst_7.ty.Contents (Elt Ideal)) :
    (TRef.of (sig := sig) main_cst_7 h1 h2 h3).ofBuf v = v := rfl

/-! ## The result buffer after the line -/

set_option maxRecDepth 8192 in
set_option maxHeartbeats 74400000 in
/-- The result buffer after the 186 operations, from any contents `U`, is the specification's function of `U` at the
    seven argument buffers. -/
theorem result_eq (U : Valuation τ sig (Elt Ideal)) :
    after (ops (F := Ideal)) U (Proc.devRef .tc main_v123)
      = Cert.Spec.out (F := Ideal) (U (Proc.devRef .tc main_arg0)) (U (Proc.devRef .tc main_arg1)) (U (Proc.devRef .tc main_arg2))
          (U (Proc.devRef .tc main_arg3)) (U (Proc.devRef .tc main_arg4)) (U (Proc.devRef .tc main_arg5)) (U (Proc.devRef .tc main_arg6)) := by
  after_results_simp
  repeat (first
    | rw [ofBuf_toBuf]
    | rw [toBuf_main_v123]
    | rw [toBuf_main_v71]
    | rw [toBuf_main_v79]
    | rw [toBuf_main_v61]
    | rw [toBuf_main_v9]
    | rw [toBuf_main_v17]
    | rw [ofBuf_main_v122]
    | rw [ofBuf_main_v68]
    | rw [ofBuf_main_v70]
    | rw [ofBuf_main_cst_21]
    | rw [ofBuf_main_v76]
    | rw [ofBuf_main_v78]
    | rw [ofBuf_main_cst_25]
    | rw [ofBuf_main_v60]
    | rw [ofBuf_main_v6]
    | rw [ofBuf_main_v8]
    | rw [ofBuf_main_cst_3]
    | rw [ofBuf_main_v14]
    | rw [ofBuf_main_v16]
    | rw [ofBuf_main_cst_7])
  rfl

set_option maxRecDepth 8192 in
set_option maxHeartbeats 74400000 in
/-- On every device, from any memory with zero counters: every weakly fair execution of the reference's @main
    terminates with the result at the specification's function of the launch arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v123)
        = Cert.Spec.out (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v123).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RefValue

end
-- ==== Proof.lean ====
/-
  The claim: a two-layer hypergraph convolution with a row-wise log-softmax, as three tiled kernels with the
  incidence operator between them, computes what the plain reference computes.

  Both programs, read at the extended reals, end with the same array:

      logSoftmaxRows (spread (relu (spread (x · W₁) + b₁) · W₂) + b₂)

  where `spread` is the degree-normalised incidence operator (node → hyperedge → node), which both programs apply
  with the same host operations in the same order. The kernel's three regions each leave one whole-array function of
  what they found — a product, a bias-clamp-product, a biased row-wise log-softmax — because an entry of each depends
  on one row of the row-tiled operand and the twenty blocks of 5000 rows cover the array; a product is a sum over the
  contracted coordinate whatever the tiling, and a change of float format is the identity. The reference's 186 host
  operations compose to the same function. No law used here needs finiteness, so the precondition is never opened.
  The frames are the generated ones for the two kernel programs and the reference's run with its result dropped;
  the idealization rewrote nothing, so there is nothing to preserve.
-/
import proofs.«116423_j20418274525980_1_alg».proof.Defs
import proofs.«116423_j20418274525980_1_alg».proof.Proof.Gen.Kernel
import proofs.«116423_j20418274525980_1_alg».proof.Proof.Gen.Kernel.Frame
import proofs.«116423_j20418274525980_1_alg».proof.Proof.Gen.KernelIdeal
import proofs.«116423_j20418274525980_1_alg».proof.Proof.Gen.KernelIdeal.Frame
import proofs.«116423_j20418274525980_1_alg».proof.Proof.Gen.ReferenceIdeal
import proofs.«116423_j20418274525980_1_alg».proof.Proof.Gen.Pre_finite_inputs
import proofs.«116423_j20418274525980_1_alg».proof.Proof.KernelRun
import proofs.«116423_j20418274525980_1_alg».proof.Proof.KernelValue
import proofs.«116423_j20418274525980_1_alg».proof.Proof.RefValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the seven arguments both programs end with the specification's function of them. -/
theorem algebraic : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Value.result_eq m ρ c), (h c).2⟩)
      (Cert.KernelIdeal.WholeRun.run (F := Ideal) m ρ)
  · refine (θ_run Cert.ReferenceIdeal.defs _ _).mono (fun r h c => ⟨(h c).1.trans ?_, (h c).2⟩)
      (Cert.ReferenceIdeal.RefValue.run m' ρ')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
